-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x48 : Shape := ⟨2, ![1600000, 48]⟩
abbrev S1600000 : Shape := ⟨1, ![1600000]⟩
abbrev S48x48 : Shape := ⟨2, ![48, 48]⟩
abbrev S48 : Shape := ⟨1, ![48]⟩
abbrev S_ : Shape := ⟨0, ![]⟩

class Facts : Prop where
  bcast_S_S1600000x48 : S_.BroadcastsInDim S1600000x48 (![] : Fin 0 → Fin S1600000x48.rank)
  reducesTo_S1600000x48_S_d0_1 : S1600000x48.ReducesTo [0, 1] S_
  h_S_ : 0 < S_.numel
  bcast_S_S48x48 : S_.BroadcastsInDim S48x48 (![] : Fin 0 → Fin S48x48.rank)
  reducesTo_S48x48_S_d0_1 : S48x48.ReducesTo [0, 1] S_
  bcast_S_S48 : S_.BroadcastsInDim S48 (![] : Fin 0 → Fin S48.rank)
  reducesTo_S48_S_d0 : S48.ReducesTo [0] S_

variable [Facts]

def fn {F : FTy → Type} [FloatOps F] (main_arg0 : FVec F S1600000x48 .f32) (main_arg1 : IVec S1600000 32) (main_arg2 : IVec S1600000 32) (main_arg3 : FVec F S48x48 .f32) (main_arg4 : FVec F S48 .f32) : IVec S_ 1 :=
  let main_v0 : FVec F S1600000x48 .f32 := Host.absf main_arg0
  let main_cst : FVec F S_ .f32 := constant S_ .f32 0x7F800000#32
  let main_v1 : FVec F S1600000x48 .f32 := broadcastInDim S1600000x48 ![] bcast_S_S1600000x48 main_cst
  let main_v2 : IVec S1600000x48 1 := cmpf .olt main_v0 main_v1
  let main_c : IVec S_ 1 := constantI S_ 1 1#1
  let main_v3 : IVec S_ 1 := (fun x v => Host.reduce IntOp.andi x v reducesTo_S1600000x48_S_d0_1 h_S_) main_v2 main_c
  let main_v4 : FVec F S48x48 .f32 := Host.absf main_arg3
  let main_cst_0 : FVec F S_ .f32 := constant S_ .f32 0x7F800000#32
  let main_v5 : FVec F S48x48 .f32 := broadcastInDim S48x48 ![] bcast_S_S48x48 main_cst_0
  let main_v6 : IVec S48x48 1 := cmpf .olt main_v4 main_v5
  let main_c_1 : IVec S_ 1 := constantI S_ 1 1#1
  let main_v7 : IVec S_ 1 := (fun x v => Host.reduce IntOp.andi x v reducesTo_S48x48_S_d0_1 h_S_) main_v6 main_c_1
  let main_v8 : IVec S_ 1 := andi main_v3 main_v7
  let main_v9 : FVec F S48 .f32 := Host.absf main_arg4
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  main_v13
-- ==== Kernel.lean ====
abbrev S1600000x48 : Shape := ⟨2, ![1600000, 48]⟩
abbrev S1600000 : Shape := ⟨1, ![1600000]⟩
abbrev S48x48 : Shape := ⟨2, ![48, 48]⟩
abbrev S48 : Shape := ⟨1, ![48]⟩
abbrev S_ : Shape := ⟨0, ![]⟩
abbrev S1600000x1 : Shape := ⟨2, ![1600000, 1]⟩
abbrev S1600000x49 : Shape := ⟨2, ![1600000, 49]⟩
abbrev S50000x49 : Shape := ⟨2, ![50000, 49]⟩
abbrev S50000x48 : Shape := ⟨2, ![50000, 48]⟩
abbrev S50000x1 : Shape := ⟨2, ![50000, 1]⟩
abbrev S50000 : Shape := ⟨1, ![50000]⟩
abbrev S5000x48 : Shape := ⟨2, ![5000, 48]⟩
abbrev S1x48 : Shape := ⟨2, ![1, 48]⟩

abbrev nBuf : Space → Nat
  | .hbm => 57
  | .vmem => 5
  | .smem => 0
  | _ => 0

abbrev bufTy : (tb : Table) → Fin (tcTables nBuf tb) → BufTy
  | .hbm, ⟨0, _⟩ => ⟨S1600000x48, .f32⟩
  | .hbm, ⟨1, _⟩ => ⟨S1600000, .i32⟩
  | .hbm, ⟨2, _⟩ => ⟨S1600000, .i32⟩
  | .hbm, ⟨3, _⟩ => ⟨S48x48, .f32⟩
  | .hbm, ⟨4, _⟩ => ⟨S48, .f32⟩
  | .hbm, ⟨5, _⟩ => ⟨S_, .f32⟩
  | .hbm, ⟨6, _⟩ => ⟨S1600000x1, .f32⟩
  | .hbm, ⟨7, _⟩ => ⟨S1600000x49, .f32⟩
  | .hbm, ⟨8, _⟩ => ⟨S_, .f32⟩
  | .hbm, ⟨9, _⟩ => ⟨S50000x49, .f32⟩
  | .hbm, ⟨10, _⟩ => ⟨S1600000x1, .i32⟩
  | .hbm, ⟨11, _⟩ => ⟨S50000x49, .f32⟩
  | .hbm, ⟨12, _⟩ => ⟨S50000x48, .f32⟩
  | .hbm, ⟨13, _⟩ => ⟨S50000x1, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x48, .f32⟩
  | .hbm, ⟨20, _⟩ => ⟨S50000x48, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x48, .f32⟩
  | .hbm, ⟨30, _⟩ => ⟨S_, .f32⟩
  | .hbm, ⟨31, _⟩ => ⟨S50000x48, .f32⟩
  | .hbm, ⟨32, _⟩ => ⟨S1600000x1, .i32⟩
  | .hbm, ⟨33, _⟩ => ⟨S50000x48, .f32⟩
  | .hbm, ⟨34, _⟩ => ⟨S50000x48, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x48, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x48, .f32⟩
  | .hbm, ⟨53, _⟩ => ⟨S1600000x48, .f32⟩
  | .hbm, ⟨54, _⟩ => ⟨S1x48, .f32⟩
  | .hbm, ⟨55, _⟩ => ⟨S1600000x48, .f32⟩
  | .hbm, ⟨56, _⟩ => ⟨S1600000x48, .f32⟩
  | .local _ .vmem, ⟨0, _⟩ => ⟨S5000x48, .f32⟩
  | .local _ .vmem, ⟨1, _⟩ => ⟨S5000x48, .f32⟩
  | .local _ .vmem, ⟨2, _⟩ => ⟨S48x48, .f32⟩
  | .local _ .vmem, ⟨3, _⟩ => ⟨S5000x48, .f32⟩
  | .local _ .vmem, ⟨4, _⟩ => ⟨S5000x48, .f32⟩
  | _, _ => ⟨S1600000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000x1 : S_.BroadcastsInDim S1600000x1 (![] : Fin 0 → Fin S1600000x1.rank)
  concatenates_S1600000x48_S1600000x1_S1600000x49_d1 : Shape.Concatenates [S1600000x48, S1600000x1] S1600000x49 1
  bcast_S_S50000x49 : S_.BroadcastsInDim S50000x49 (![] : Fin 0 → Fin S50000x49.rank)
  bcast_S1600000_S1600000x1_0 : S1600000.BroadcastsInDim S1600000x1 (![0] : Fin 1 → Fin S1600000x1.rank)
  slices_S50000x49_S50000x48_0_0 : S50000x49.Slices ![0, 0] S50000x48
  slices_S50000x49_S50000x1_0_48 : S50000x49.Slices ![0, 48] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x48_0_1 : S50000x1.BroadcastsInDim S50000x48 (![0, 1] : Fin 2 → Fin S50000x48.rank)
  bcast_S_S1600000 : S_.BroadcastsInDim S1600000 (![] : Fin 0 → Fin S1600000.rank)
  bcast_S_S50000x48 : S_.BroadcastsInDim S50000x48 (![] : Fin 0 → Fin S50000x48.rank)
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  bitsLt_bf16_f32 : FTy.bits .bf16 < FTy.bits .f32
  inb_S48x48_S48x48_0_0 : ∀ a, (![0, 0] : Fin 2 → Nat) a + S48x48.size a ≤ S48x48.size a
  h_S48x48 : 0 < S48x48.numel
  bcast_S48_S1x48_1 : S48.BroadcastsInDim S1x48 (![1] : Fin 1 → Fin S1x48.rank)
  bcast_S1x48_S1600000x48_0_1 : S1x48.BroadcastsInDim S1600000x48 (![0, 1] : Fin 2 → Fin S1600000x48.rank)
  scatter_S50000x49_S1600000x1_S1600000x49_1_0_0_1_wf : ScatterDims.WF S50000x49 S1600000x1 S1600000x49 [1] [0] [0] 1
  gather_S50000x48_S1600000x1_S1600000x48_1_0_n_n_0_1_148_wf : GatherDims.WF S50000x48 S1600000x1 S1600000x48 [1] [0] [] [0] [] 1 ![1, 48]
  scatter_S50000x48_S1600000x1_S1600000x48_1_0_0_1_wf : ScatterDims.WF S50000x48 S1600000x1 S1600000x48 [1] [0] [0] 1
  dot_S5000x48_S48x48_S5000x48_1_1_0_0_n_n_wf : DotDims.WF S5000x48 S48x48 S5000x48 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S50000x48.size a
  hwx0_0 : ∀ i : grid0.Coords, EltTy.bits .f32 = 32 ∨ (Rect.block (s := S50000x48) S5000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x48.size a ≤ S48x48.size a
  hwx0_1 : ∀ i : grid0.Coords, EltTy.bits .f32 = 32 ∨ (Rect.block (s := S48x48) S48x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x48.size a ≤ S50000x48.size a
  hwx0_2 : ∀ i : grid0.Coords, EltTy.bits .f32 = 32 ∨ (Rect.block (s := S50000x48) S5000x48.size (cc0_transform_2 i) (hinb0_2 i)).WholeWords (EltTy.packing .f32)

variable [Facts₀]

def scatter_S50000x49_S1600000x1_S1600000x49_1_0_0_1 : ScatterDims S50000x49 S1600000x1 S1600000x49 where
  updateWindowDims := [1]
  insertedWindowDims := [0]
  scatterDimsToOperandDims := [0]
  indexVectorDim := 1
  wf := scatter_S50000x49_S1600000x1_S1600000x49_1_0_0_1_wf
def gather_S50000x48_S1600000x1_S1600000x48_1_0_n_n_0_1_148 : GatherDims S50000x48 S1600000x1 S1600000x48 where
  offsetDims := [1]
  collapsedSliceDims := [0]
  operandBatchingDims := []
  startIndicesBatchingDims := []
  startIndexMap := [0]
  indexVectorDim := 1
  sliceSizes := ![1, 48]
  wf := gather_S50000x48_S1600000x1_S1600000x48_1_0_n_n_0_1_148_wf
def scatter_S50000x48_S1600000x1_S1600000x48_1_0_0_1 : ScatterDims S50000x48 S1600000x1 S1600000x48 where
  updateWindowDims := [1]
  insertedWindowDims := [0]
  scatterDimsToOperandDims := [0]
  indexVectorDim := 1
  wf := scatter_S50000x48_S1600000x1_S1600000x48_1_0_0_1_wf
def dot_S5000x48_S48x48_S5000x48_1_1_0_0_n_n : DotDims S5000x48 S48x48 S5000x48 where
  lhsContracting := [1]
  rhsContracting := [1]
  lhsNonContracting := [0]
  rhsNonContracting := [0]
  lhsBatch := []
  rhsBatch := []
  wf := dot_S5000x48_S48x48_S5000x48_1_1_0_0_n_n_wf

abbrev win0_0 : Pipeline.Window sig grid0 :=
  Pipeline.Window.ofSpec (Memref.whole main_v22) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S48x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1600000x48 : Shape := ⟨2, ![1600000, 48]⟩
abbrev S1600000 : Shape := ⟨1, ![1600000]⟩
abbrev S48x48 : Shape := ⟨2, ![48, 48]⟩
abbrev S48 : Shape := ⟨1, ![48]⟩
abbrev S_ : Shape := ⟨0, ![]⟩
abbrev S50000 : Shape := ⟨1, ![50000]⟩
abbrev S1600000x1 : Shape := ⟨2, ![1600000, 1]⟩
abbrev S50000x48 : Shape := ⟨2, ![50000, 48]⟩
abbrev S50000x1 : Shape := ⟨2, ![50000, 1]⟩
abbrev S1x48 : Shape := ⟨2, ![1, 48]⟩

abbrev nBuf : Space → Nat
  | .hbm => 61
  | .vmem => 0
  | .smem => 0
  | _ => 0

abbrev bufTy : (tb : Table) → Fin (tcTables nBuf tb) → BufTy
  | .hbm, ⟨0, _⟩ => ⟨S1600000x48, .f32⟩
  | .hbm, ⟨1, _⟩ => ⟨S1600000, .i32⟩
  | .hbm, ⟨2, _⟩ => ⟨S1600000, .i32⟩
  | .hbm, ⟨3, _⟩ => ⟨S48x48, .f32⟩
  | .hbm, ⟨4, _⟩ => ⟨S48, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000x48, .f32⟩
  | .hbm, ⟨13, _⟩ => ⟨S1600000x1, .i32⟩
  | .hbm, ⟨14, _⟩ => ⟨S50000x48, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x48, .f32⟩
  | .hbm, ⟨20, _⟩ => ⟨S50000x48, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x48, .f32⟩
  | .hbm, ⟨30, _⟩ => ⟨S_, .f32⟩
  | .hbm, ⟨31, _⟩ => ⟨S50000x48, .f32⟩
  | .hbm, ⟨32, _⟩ => ⟨S1600000x1, .i32⟩
  | .hbm, ⟨33, _⟩ => ⟨S50000x48, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x48, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x48, .f32⟩
  | .hbm, ⟨52, _⟩ => ⟨S1600000x48, .f32⟩
  | .hbm, ⟨53, _⟩ => ⟨S_, .f32⟩
  | .hbm, ⟨54, _⟩ => ⟨S1600000x48, .f32⟩
  | .hbm, ⟨55, _⟩ => ⟨S1600000x48, .f32⟩
  | .hbm, ⟨56, _⟩ => ⟨S48x48, .f32⟩
  | .hbm, ⟨57, _⟩ => ⟨S1600000x48, .f32⟩
  | .hbm, ⟨58, _⟩ => ⟨S1x48, .f32⟩
  | .hbm, ⟨59, _⟩ => ⟨S1600000x48, .f32⟩
  | .hbm, ⟨60, _⟩ => ⟨S1600000x48, .f32⟩
  | _, _ => ⟨S1600000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x48 : S_.BroadcastsInDim S50000x48 (![] : Fin 0 → Fin S50000x48.rank)
  bcast_S50000_S50000x1_0 : S50000.BroadcastsInDim S50000x1 (![0] : Fin 1 → Fin S50000x1.rank)
  bcast_S50000x1_S50000x48_0_1 : S50000x1.BroadcastsInDim S50000x48 (![0, 1] : Fin 2 → Fin S50000x48.rank)
  bcast_S_S1600000x48 : S_.BroadcastsInDim S1600000x48 (![] : Fin 0 → Fin S1600000x48.rank)
  transposes_S48x48_S48x48_1_0 : S48x48.Transposes [1, 0] S48x48
  bcast_S48_S1x48_1 : S48.BroadcastsInDim S1x48 (![1] : Fin 1 → Fin S1x48.rank)
  bcast_S1x48_S1600000x48_0_1 : S1x48.BroadcastsInDim S1600000x48 (![0, 1] : Fin 2 → Fin S1600000x48.rank)
  scatter_S50000_S1600000x1_S1600000_n_0_0_1_wf : ScatterDims.WF S50000 S1600000x1 S1600000 [] [0] [0] 1
  scatter_S50000x48_S1600000x1_S1600000x48_1_0_0_1_wf : ScatterDims.WF S50000x48 S1600000x1 S1600000x48 [1] [0] [0] 1
  gather_S50000x48_S1600000x1_S1600000x48_1_0_n_n_0_1_148_wf : GatherDims.WF S50000x48 S1600000x1 S1600000x48 [1] [0] [] [0] [] 1 ![1, 48]
  dot_S1600000x48_S48x48_S1600000x48_1_0_0_1_n_n_wf : DotDims.WF S1600000x48 S48x48 S1600000x48 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x48_S1600000x1_S1600000x48_1_0_0_1 : ScatterDims S50000x48 S1600000x1 S1600000x48 where
  updateWindowDims := [1]
  insertedWindowDims := [0]
  scatterDimsToOperandDims := [0]
  indexVectorDim := 1
  wf := scatter_S50000x48_S1600000x1_S1600000x48_1_0_0_1_wf
def gather_S50000x48_S1600000x1_S1600000x48_1_0_n_n_0_1_148 : GatherDims S50000x48 S1600000x1 S1600000x48 where
  offsetDims := [1]
  collapsedSliceDims := [0]
  operandBatchingDims := []
  startIndicesBatchingDims := []
  startIndexMap := [0]
  indexVectorDim := 1
  sliceSizes := ![1, 48]
  wf := gather_S50000x48_S1600000x1_S1600000x48_1_0_n_n_0_1_148_wf
def dot_S1600000x48_S48x48_S1600000x48_1_0_0_1_n_n : DotDims S1600000x48 S48x48 S1600000x48 where
  lhsContracting := [1]
  rhsContracting := [0]
  lhsNonContracting := [0]
  rhsNonContracting := [1]
  lhsBatch := []
  rhsBatch := []
  wf := dot_S1600000x48_S48x48_S1600000x48_1_0_0_1_n_n_wf

class Facts : Prop extends Facts₀ where

variable [Facts]
-- ==== Proof.KernelStages.lean ====
/-
  The kernel program around its region, as stages.

  Before the region the host computes, from the edge features `ef` (E × 48) and the two index vectors `src`, `dst`:
  * `cntK`   : the edge features with a column of ones appended (E × 49), summed per destination node (N × 49): columns
                0..47 are the per-node feature sums, column 48 the in-degree;
  * `nodeK`  : the per-node mean, the feature sums divided by `max (degree, 1)`;
  * `wrapIdx`: an index vector as a column of row numbers, a negative entry moved up by N (jnp's indexing);
  * `h2K`    : the means gathered at `src` and summed per destination node.
  After the region, which turns `h2K` into the table `g`, the host gathers `g` at `src` and at `dst`, adds the two and adds
  the bias row (`tailK`).
-/
import proofs.«152618_j27986006901492_2_alg».proof.Proof.Gen.KernelIdeal.Frame
import Idealize.ShloMosaic.Lib.StableHlo.Run
import Idealize.ShloMosaic.PureOps.Ideal
import Idealize.ShloMosaic.PureOps.Ideal.Laws

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo

/-- Per destination node: the sums of the edge features (columns 0..47) and the in-degree (column 48). -/
def cntK (ef : FVec Ideal S1600000x48 .f32) (dst : IVec S1600000 32) : FVec Ideal S50000x49 .f32 :=
  Host.scatterAdd (F := Ideal) scatter_S50000x49_S1600000x1_S1600000x49_1_0_0_1
    (broadcastInDim S50000x49 ![] bcast_S_S50000x49 (constant (F := Ideal) S_ .f32 0x00000000#32))
    (broadcastInDim S1600000x1 ![0] bcast_S1600000_S1600000x1_0 dst)
    (concatenate S1600000x49 1
      [⟨S1600000x48, ef⟩,
       ⟨S1600000x1, broadcastInDim S1600000x1 ![] bcast_S_S1600000x1 (constant (F := Ideal) S_ .f32 0x3F800000#32)⟩]
      concatenates_S1600000x48_S1600000x1_S1600000x49_d1)

/-- The per-node mean of the in-edge features: the sums over `max (degree, 1)`. -/
def nodeK (ef : FVec Ideal S1600000x48 .f32) (dst : IVec S1600000 32) : FVec Ideal S50000x48 .f32 :=
  Host.divf (F := Ideal) (extractStridedSlice S50000x48 ![0, 0] (cntK ef dst) slices_S50000x49_S50000x48_0_0)
    (broadcastInDim S50000x48 ![0, 1] bcast_S50000x1_S50000x48_0_1
      (broadcastInDim S50000x1 ![0] bcast_S50000_S50000x1_0
        (maximumf (F := Ideal)
          (shapeCast S50000 (extractStridedSlice S50000x1 ![0, 48] (cntK ef dst) slices_S50000x49_S50000x1_0_48)
            shapeCasts_S50000x1_S50000)
          (broadcastInDim S50000 ![] bcast_S_S50000 (constant (F := Ideal) S_ .f32 0x3F800000#32)))))

/-- An index vector as a column of row numbers, a negative entry moved up by the number of nodes. -/
def wrapIdx (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 50000#32))) x)

/-- The means gathered at `src`, summed per destination node. -/
def h2K (ef : FVec Ideal S1600000x48 .f32) (src dst : IVec S1600000 32) : FVec Ideal S50000x48 .f32 :=
  Host.scatterAdd (F := Ideal) scatter_S50000x48_S1600000x1_S1600000x48_1_0_0_1
    (broadcastInDim S50000x48 ![] bcast_S_S50000x48 (constant (F := Ideal) S_ .f32 0x00000000#32))
    (broadcastInDim S1600000x1 ![0] bcast_S1600000_S1600000x1_0 dst)
    (Host.gather gather_S50000x48_S1600000x1_S1600000x48_1_0_n_n_0_1_148 (nodeK ef dst) (wrapIdx src))

/-- The lines after the region: the table gathered at `src` and at `dst`, added, plus the bias row. -/
def tailK (g : FVec Ideal S50000x48 .f32) (src dst : IVec S1600000 32) (b : FVec Ideal S48 .f32) :
    FVec Ideal S1600000x48 .f32 :=
  addf (F := Ideal)
    (addf (F := Ideal) (Host.gather gather_S50000x48_S1600000x1_S1600000x48_1_0_n_n_0_1_148 g (wrapIdx src))
      (Host.gather gather_S50000x48_S1600000x1_S1600000x48_1_0_n_n_0_1_148 g (wrapIdx dst)))
    (broadcastInDim S1600000x48 ![0, 1] bcast_S1x48_S1600000x48_0_1 (broadcastInDim S1x48 ![1] bcast_S48_S1x48_1 b))

variable (m : (ℓ : Loc nD τ sig) → Buf (Elt Ideal) ℓ)

set_option maxHeartbeats 2000000 in
/-- The node table the region is launched on is `h2K` of the argument arrays. -/
theorem V_main_v22 (c : Dev nD) :
    (V m c main_v22 : S50000x48.Idx → EReal)
      = h2K (m ((c : Thread nD τ).loc main_arg0)) (m ((c : Thread nD τ).loc main_arg1)) (m ((c : Thread nD τ).loc main_arg2)) := by
  dsimp only [Gen.V, Gen.V0]
  simp only [List.flatten_cons, List.flatten_nil, List.append_nil]
  after_results_simp
  rfl

end Cert.KernelIdeal.Stages

end
-- ==== Proof.RegionPayload.lean ====
/-
  What the kernel's body stores at a point, entry by entry.

  The region walks ten blocks of 5000 node rows. At a block it multiplies the block of the node table `h` (5000 × 48) by the
  weight `W` (48 × 48), contracting the feature axis of both (rows of `h` against rows of `W`, i.e. `h · Wᵀ`), and scales by
  one half. A change of float format is the identity on the extended reals and the product starts from a zero accumulator,
  so entry `(p, q)` of a block is `(∑ₖ h(p, k) · W(q, k)) · ½`. The ten blocks are disjoint and fill the 50000 rows, so after
  the region the output array is that function of the whole node table: row `n`, column `o` holds
  `(∑ₖ h(n, k) · W(o, k)) · ½`.
-/
import proofs.«152618_j27986006901492_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx Idealize.ShloMosaic.Pipeline

/-- The scale the body multiplies by: the f32 word of one half. -/
abbrev half : EReal := Ideal.ofBits .f32 0x3F000000#32

/-- The node table times the transposed weight, halved: entry `(n, o)` is `(∑ₖ h(n, k) · W(o, k)) · ½`. -/
def halfProduct (h : S50000x48.Idx → EReal) (W : S48x48.Idx → EReal) : S50000x48.Idx → EReal :=
  fun i => (∑ k : Fin 48, h (ix2 (i 0 : Fin 50000) k) * W (ix2 (i 1 : Fin 48) k)) * half

/-- `halfProduct` at an entry. -/
theorem halfProduct_apply (h : S50000x48.Idx → EReal) (W : S48x48.Idx → EReal) (i : S50000x48.Idx) :
    halfProduct h W i = (∑ k : Fin 48, h (ix2 (i 0 : Fin 50000) k) * W (ix2 (i 1 : Fin 48) k)) * half := rfl

local notation "dd" => dot_S5000x48_S48x48_S5000x48_1_1_0_0_n_n

/-- On the output's row axis the left operand's index is the output's row. -/
theorem lhs_row (j : S5000x48.Idx) (κ : (dd).contr.Idx) : (DotDims.lhsIdx dd j κ 0).val = (j 0).val := by
  unfold DotDims.lhsIdx
  rw [dif_neg (show ¬(0 : Fin S5000x48.rank) ∈ (dd).lhsBatch by decide),
    dif_pos (show (0 : Fin S5000x48.rank) ∈ (dd).lhsNonContracting by decide)]
  rfl

/-- On the weight's row axis the right operand's index is the output's column. -/
theorem rhs_row (j : S5000x48.Idx) (κ : (dd).contr.Idx) : (DotDims.rhsIdx dd j κ 0).val = (j 1).val := by
  unfold DotDims.rhsIdx
  rw [dif_neg (show ¬(0 : Fin S48x48.rank) ∈ (dd).rhsBatch by decide),
    dif_pos (show (0 : Fin S48x48.rank) ∈ (dd).rhsNonContracting by decide)]
  rfl

/-- The left operand of the block product is read at (row of the output, contraction index). -/
theorem lhs_at (p : Fin 5000) (q k : Fin 48) :
    DotDims.lhsIdx dd (ix2 p q) ((contrEquiv1 dd 48 rfl rfl).symm k) = ix2 p k := by
  have hk := contrEquiv1_symm_val dd 48 rfl rfl k
  funext a; apply Fin.ext
  match a with
  | ⟨0, _⟩ => exact lhs_row _ _
  | ⟨1, _⟩ => exact (DotDims.lhsIdx_val_of_single dd rfl _ _).trans hk

/-- The right operand is read at (column of the output, contraction index): the weight's rows are contracted. -/
theorem rhs_at (p : Fin 5000) (q k : Fin 48) :
    DotDims.rhsIdx dd (ix2 p q) ((contrEquiv1 dd 48 rfl rfl).symm k) = ix2 q k := by
  have hk := contrEquiv1_symm_val dd 48 rfl rfl k
  funext a; apply Fin.ext
  match a with
  | ⟨0, _⟩ => exact rhs_row _ _
  | ⟨1, _⟩ => exact (DotDims.rhsIdx_val_of_single dd rfl _ _).trans hk

/-- THE BODY'S STORE AT AN ENTRY: the halved product of row `p` of the node block with row `q` of the weight. -/
theorem pay_apply (x0 : Vec Ideal S5000x48 .f32) (x1 : Vec Ideal S48x48 .f32) (p : Fin 5000) (q : Fin 48) :
    k0_pay1 (F := Ideal) x0 x1 (ix2 p q) = (∑ k : Fin 48, x0 (ix2 p k) * x1 (ix2 q k)) * half := by
  unfold k0_pay1
  show (FloatOps.matmul (F := Ideal) dd none (truncf .bf16 (shapeCast S5000x48 x0 shapeCasts_S5000x48_S5000x48) bitsLt_bf16_f32)
      (truncf .bf16 x1 bitsLt_bf16_f32) (constant S5000x48 .f32 0x00000000#32) (ix2 p q)) * half = _
  refine congrArg (· * half) ?_
  rw [Ideal.matmul_constant_zero_apply, ← Equiv.sum_comp (contrEquiv1 dd 48 rfl rfl).symm]
  refine Finset.sum_congr rfl fun k _ => ?_
  rw [lhs_at, rhs_at, shapeCast_self]
  rfl

end Cert.KernelIdeal.Region

end
-- ==== Proof.RegionValue.lean ====
/-
  What the kernel's one region leaves in its output array.

  At a point the body stores, from the point's block of the node table and the whole weight, the halved product of
  RegionPayload. Row `p` of the point's block is row `5000 · (block row) + p` of the table, so what a point writes back is
  its block of ONE whole-array function, `halfProduct` of the node table and the weight. The ten blocks are disjoint and fill
  the 50000 rows, so after the region the output array is `halfProduct` of the node table and the weight as the region
  found them.
-/
import proofs.«152618_j27986006901492_2_alg».proof.Proof.Gen.KernelIdeal.Frame
import proofs.«152618_j27986006901492_2_alg».proof.Proof.RegionPayload
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx Idealize.ShloMosaic.Pipeline

theorem hz : (![0, 0] : Fin 2 → Nat) = fun _ => 0 := funext fun a => by fin_cases a <;> rfl

/-- The index maps over the grid: the node table's block moves with the output's block down the rows and neither moves
    along the features; the weight's block never moves; the output's block row stays below ten. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- ONE POINT, for ANY node table `A` and weight `B`: the body's store computed from point `t`'s blocks of `A` and `B` is
    point `t`'s block of `halfProduct A B`. -/
theorem block_eq (A : S50000x48.Idx → EReal) (B : S48x48.Idx → EReal) (t : Fin cfg0.N) :
    out0_2 (F := Ideal) (((cfg0.win 0).blk t).view.read (Elt Ideal) A) (((cfg0.win 1).blk t).view.read (Elt Ideal) B)
      = ((cfg0.win 2).blk t).view.read (Elt Ideal) (halfProduct A B) := by
  unfold out0_2
  rw [View.canon_unit_zero hz]
  simp only [View.ld_unit_zero (S := S5000x48) hz, View.ld_unit_zero (S := S48x48) hz]
  obtain ⟨e0, e1, e2, e3, e4, e5⟩ := idx_facts t
  funext j
  obtain ⟨p, q, rfl⟩ : ∃ (p : Fin 5000) (q : Fin 48), j = ix2 p q := ⟨j 0, j 1, eq_ix2 j⟩
  refine (pay_apply _ _ p q).trans ?_
  rw [View.read_apply, cast_eq, halfProduct_apply]
  refine congrArg (· * half) (Finset.sum_congr rfl fun k _ => ?_)
  rw [View.read_apply, View.read_apply, cast_eq, cast_eq]
  have h0 : ((cfg0.win 0).blk t).view.emb (ix2 p k)
      = ix2 ((((cfg0.win 2).blk t).view.emb (ix2 p q)) 0 : Fin 50000) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 48 + 1 * k.val = k.val; omega
  have h1 : ((cfg0.win 1).blk t).view.emb (ix2 q k)
      = ix2 ((((cfg0.win 2).blk t).view.emb (ix2 p q)) 1 : Fin 48) k := by
    funext a; apply Fin.ext
    match a with
    | ⟨0, _⟩ => show win0_1.index t (0 : Fin 2) * 48 + 1 * q.val = win0_2.index t (1 : Fin 2) * 48 + 1 * q.val; omega
    | ⟨1, _⟩ => show win0_1.index t (1 : Fin 2) * 48 + 1 * k.val = k.val; omega
  rw [h0, h1]
  rfl

variable (m : (ℓ : Loc nD τ sig) → Buf (Elt Ideal) ℓ)

/-- WHAT POINT `t` WRITES BACK is block `t` of `halfProduct` of the node table and the weight as the region finds them. -/
theorem flushed_eq (c : Dev nD) (t : Fin cfg0.N) :
    (dats m 0 c).flushed 2 t
      = ((cfg0.win 2).blk t).view.read (Elt Ideal) (halfProduct (V m c main_v22) (V m c main_arg3)) := by
  show (cfg0.win 2).cut (grid0.coords t) ((dats m 0 c).after 2 t) = _
  rw [after0_2]
  exact block_eq (V m c main_v22) (V m c main_arg3) t

/-- An index of the array is in point `t`'s block iff each coordinate is in the block's range on its axis. -/
theorem mem_blk (t : Fin cfg0.N) (i : S50000x48.Idx) :
    i ∈ ((cfg0.win 2).blk t).view.set ↔ ∀ a : Fin 2, win0_2.index t a * S5000x48.size a ≤ (i a).val
      ∧ (i a).val < win0_2.index t a * S5000x48.size a + S5000x48.size a := by
  show i ∈ ((View.whole main_v23).slice (win0_2.rect t)).set ↔ _
  rw [View.set_slice_whole, Rect.mem_set_unit]
  exact Iff.rfl

/-- THE TEN BLOCKS FILL THE ARRAY: row `r` lies in the block of the point whose block row is `r / 5000`. -/
theorem cover (i : S50000x48.Idx) :
    ∃ t : Fin cfg0.N, (cfg0.win 2).flush t = true ∧ i ∈ ((cfg0.win 2).blk t).view.set := by
  have hi0 : (i 0).val < 50000 := (i 0).isLt
  have hi1 : (i 1).val < 48 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 48 ≤ (i 1).val ∧ (i 1).val < win0_2.index t (1 : Fin 2) * 48 + 48
    omega

/-- THE ARRAY AFTER THE REGION: the halved product of the whole node table with the transposed weight. -/
theorem final (c : Dev nD) :
    (dats m 0 c).arrAt 2 cfg0.N = halfProduct (V m c main_v22) (V m c main_arg3) :=
  (dats m 0 c).arrAt_eq_of_cover 2 _ (fun t _ => flushed_eq m c t) cover

end Cert.KernelIdeal.Region

end
-- ==== Proof.KernelValue.lean ====
/-
  The kernel program's run, with its result named.

  The generated frame run leaves the region's output array at what the ten blocks wrote (`Region.final`: the halved product
  of the node table with the transposed weight) and every other buffer at what the lines after the region compute from it.
  Read through those lines, the program's result is `tailK` of that table, and the five argument arrays end unchanged.
-/
import proofs.«152618_j27986006901492_2_alg».proof.Proof.Gen.KernelIdeal.Frame
import proofs.«152618_j27986006901492_2_alg».proof.Proof.KernelStages
import proofs.«152618_j27986006901492_2_alg».proof.Proof.RegionValue
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The program's result as a function of the argument arrays. -/
def resultK (c : Dev nD) : S1600000x48.Idx → EReal :=
  tailK
    (Region.halfProduct
      (h2K (m ((c : Thread nD τ).loc main_arg0)) (m ((c : Thread nD τ).loc main_arg1)) (m ((c : Thread nD τ).loc main_arg2)))
      (m ((c : Thread nD τ).loc main_arg3)))
    (m ((c : Thread nD τ).loc main_arg1)) (m ((c : Thread nD τ).loc main_arg2)) (m ((c : Thread nD τ).loc main_arg4))

set_option maxHeartbeats 2000000 in
/-- The lines after the region, applied to the region's output array, give `resultK`. -/
theorem tail_eq (c : Dev nD) :
    (Pipeline.afterTail₀ cfgs (dats m) 0 (V0 m) [hostOps1] c main_v41 : S1600000x48.Idx → EReal) = resultK m c := by
  unfold Pipeline.afterTail₀
  simp only [List.flatten_cons, List.flatten_nil, List.append_nil]
  after_results_simp
  have hg : (Pipeline.withArrays (cfgs 0).spec c (V0 m c) (fun w => (dats m 0 c).arrAt w (cfgs 0).N)
        (Proc.devRef .tc main_v23) : S50000x48.Idx → EReal)
      = Region.halfProduct
          (h2K (m ((c : Thread nD τ).loc main_arg0)) (m ((c : Thread nD τ).loc main_arg1)) (m ((c : Thread nD τ).loc main_arg2)))
          (m ((c : Thread nD τ).loc main_arg3)) :=
    (Pipeline.withArrays_arr spec0 launch0.win.arr_inj c _ _ 2).trans
      ((Region.final m c).trans (congrArg₂ Region.halfProduct (V_main_v22 m c) (V_main_arg3 m c)))
  have h1 : Pipeline.withArrays (cfgs 0).spec c (V0 m c) (fun w => (dats m 0 c).arrAt w (cfgs 0).N)
        (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  have h2 : Pipeline.withArrays (cfgs 0).spec c (V0 m c) (fun w => (dats m 0 c).arrAt w (cfgs 0).N)
        (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  have h4 : Pipeline.withArrays (cfgs 0).spec c (V0 m c) (fun w => (dats m 0 c).arrAt w (cfgs 0).N)
        (Proc.devRef .tc main_arg4) = m ((c : Thread nD τ).loc main_arg4) :=
    (Pipeline.withArrays_of_ne _ c (V0 m c) _ main_arg4
      (by exact (by decide : ∀ w, Pipeline.arrRef spec0 w ≠ main_arg4))).trans (V_main_arg4 m c)
  rw [hg, h1, h2, h4]
  rfl

/-- THE KERNEL PROGRAM'S RUN: every weakly fair execution terminates with the result array at `resultK` of the
    argument arrays and the argument arrays unchanged. -/
theorem run : θ_run defs (onTc (τ := τ) (main (F := Ideal))) ⟨m, fun _ => 0, ρ⟩ (fun r => ∀ c : Dev nD,
      r.2.mem ((c.tc : Thread nD τ).loc main_v41) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v41 (Pipeline.mem_restRefs_of main_v41 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main m ρ)

end Cert.KernelIdeal.Stages

end
-- ==== Proof.LibRowGatherScatter.lean ====
/-
  Row gather and row scatter-add of a 2-D array, read at an index.

  For an array `x : [N, D]` and a column of integer row numbers `idx : [E, 1]`:
  * the row gather `x[idx]` (result `[E, D]`) has element `(e, k)` equal to `x` at row `idx[e, 0]` — read as a signed
    integer and clamped into `[0, N − 1]` — and column `k`;
  * the row scatter-add of updates `upd : [E, D]` into `x` has element `(n, k)` equal to `x (n, k)` plus the sum of
    `upd (e, k)` over those `e` whose row number `idx[e, 0]`, read as a signed integer and NOT clamped, is `n`.
  The row function and the set of contributing `e` do not depend on the width `D`.
-/
import Idealize.ShloMosaic.PureOps.Ideal
import Idealize.ShloMosaic.Lib.ValueIdx

noncomputable section

open scoped BigOperators

namespace Cert.Lib.RowGatherScatter

open Idealize.ShloMosaic Idealize.ShloMosaic.ValueIdx

/-! ## The dimension numbers -/

/-- The gather's dimension numbers for an operand `[N, D]`, start indices `[E, 1]` and result `[E, D]`: result axis 1
    is the one offset axis (it runs over the operand's axis 1, whole: slice sizes `[1, D]`), operand axis 0 is collapsed
    and is the one the start index names; the index vector lies along axis 1 of the start indices. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The scatter's dimension numbers for an operand `[N, D]`, scatter indices `[E, 1]` and updates `[E, D]`: update
    axis 1 is the one window axis (it goes to the operand's axis 1), operand axis 0 is inserted and is the one the
    scatter index names; the index vector lies along axis 1 of the scatter indices. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row a start index selects: `idx[e, 0]` read as a signed integer and clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-! ## The row gather read at an index -/

section Gather
variable {α : Type}

/-- The start-indices index the gather reads for result index `(e, k)`: `[e, 0]`, whatever `k` is. -/
theorem gather_siIdx {N D E : Nat}
    (wf : GatherDims.WF ⟨2, ![N, D]⟩ ⟨2, ![E, 1]⟩ ⟨2, ![E, D]⟩ [1] [0] [] [0] [] 1 ![1, D])
    (e : Fin E) (k : Fin D) (c : Fin (rowGatherDims N D E wf).startIndexMap.length) :
    (rowGatherDims N D E wf).siIdx (ix2 e k) c = ix2 e (0 : Fin 1) := by
  funext b; refine Fin.ext ?_
  match b with
  | ⟨0, _⟩ => rfl
  | ⟨1, _⟩ =>
    have := c.isLt
    show c.val = 0
    simpa using this

/-- THE ROW GATHER READ AT `(e, k)`: the operand at row `idx[e, 0]`, read signed and clamped into `[0, N − 1]`, and
    column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k) = x (ix2 (rowOf N hN idx e) k) := by
  unfold Host.gather
  congr 1
  funext a; refine Fin.ext ?_
  match a with
  | ⟨0, _⟩ =>
    -- axis 0 is collapsed and named by the start index: the clamped start, nothing added
    show (rowGatherDims N D E wf).start (ix2 e k) idx 0 + (rowGatherDims N D E wf).batchCoord (ix2 e k) 0
      + (rowGatherDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    rw [gather_siIdx]
    rfl
  | ⟨1, _⟩ =>
    -- axis 1 is the offset axis, not named by the start index: start 0, the result's own coordinate on it
    show (rowGatherDims N D E wf).start (ix2 e k) idx 1 + (rowGatherDims N D E wf).batchCoord (ix2 e k) 1
      + (rowGatherDims N D E wf).offCoord (ix2 e k) 1 = k.val
    have h10 : (1 : Fin 2) ∉ ([0] : List (Fin 2)) := by decide
    rw [GatherDims.batchCoord_eq_zero _ _ _ List.not_mem_nil]
    have hs : (rowGatherDims N D E wf).start (ix2 e k) idx 1 = 0 := by
      unfold GatherDims.start
      rw [dif_neg h10]
    rw [hs]
    simp only [Nat.add_zero, Nat.zero_add]
    unfold GatherDims.offCoord
    rw [dif_pos ((GatherDims.mem_sKept _ _).mpr ⟨h10, List.not_mem_nil⟩)]
    rfl

end Gather

/-! ## The row scatter-add read at an index -/

section Scatter

/-- An update lands at operand index `i` exactly when, on every axis, its start (read signed) plus its window
    coordinate is `i`'s coordinate: the in-range condition is then `i`'s own. -/
theorem resultIdx?_eq_some_iff_forall {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have ha := congrArg Fin.val (congrFun (Option.some.inj h) a)
      have := hh a
      simp only at ha
      omega
    · exact absurd h (by simp)
  · intro h
    have hh : ∀ a, 0 ≤ d.start j idx a + d.window j a ∧ d.start j idx a + d.window j a < s.size a := by
      intro a
      have := h a
      have := (i a).isLt
      omega
    rw [dif_pos hh]
    congr 1
    funext a; refine Fin.ext ?_
    have := h a
    simp only
    omega

variable {N D E w : Nat} (wf : ScatterDims.WF ⟨2, ![N, D]⟩ ⟨2, ![E, 1]⟩ ⟨2, ![E, D]⟩ [1] [0] [0] 1)

/-- The scatter-indices index the scatter reads for update index `(e, k)`: `[e, 0]`, whatever `k` is. -/
theorem scatter_siIdx (e : Fin E) (k : Fin D) (c : Fin (rowScatterDims N D E wf).scatterDimsToOperandDims.length) :
    (rowScatterDims N D E wf).siIdx (ix2 e k) c = ix2 e (0 : Fin 1) := by
  funext b; refine Fin.ext ?_
  match b with
  | ⟨0, _⟩ => rfl
  | ⟨1, _⟩ =>
    have := c.isLt
    show c.val = 0
    simpa using this

/-- On axis 0 the start is the scatter index `idx[e, 0]`, read signed and not clamped. -/
theorem scatter_start0 (idx : IVec ⟨2, ![E, 1]⟩ w) (e : Fin E) (k : Fin D) :
    (rowScatterDims N D E wf).start (ix2 e k) idx 0 = (idx (ix2 e (0 : Fin 1))).toInt := by
  unfold ScatterDims.start
  rw [dif_pos (show (0 : Fin 2) ∈ (rowScatterDims N D E wf).scatterDimsToOperandDims from List.mem_singleton.mpr rfl)]
  rw [scatter_siIdx]

/-- On axis 1, which the scatter index does not name, the start is 0. -/
theorem scatter_start1 (idx : IVec ⟨2, ![E, 1]⟩ w) (e : Fin E) (k : Fin D) :
    (rowScatterDims N D E wf).start (ix2 e k) idx 1 = 0 := by
  unfold ScatterDims.start
  rw [dif_neg (show (1 : Fin 2) ∉ ([0] : List (Fin 2)) by decide)]

/-- Axis 0 is inserted: no window coordinate. -/
theorem scatter_window0 (e : Fin E) (k : Fin D) : (rowScatterDims N D E wf).window (ix2 e k) 0 = 0 := by
  unfold ScatterDims.window
  rw [dif_neg]
  simp [ScatterDims.sKept, Shape.kept]

/-- Axis 1 takes the update's own coordinate on its window axis. -/
theorem scatter_window1 (e : Fin E) (k : Fin D) : (rowScatterDims N D E wf).window (ix2 e k) 1 = k.val := by
  unfold ScatterDims.window
  rw [dif_pos (by simp [ScatterDims.sKept, Shape.kept])]
  rfl

/-- WHERE AN UPDATE LANDS: update `(e, k')` lands on operand element `(n, k)` exactly when its scatter index `idx[e, 0]`,
    read as a signed integer, is `n`, and `k' = k`. -/
theorem resultIdx?_eq_some_iff (idx : IVec ⟨2, ![E, 1]⟩ w) (e : Fin E) (k' : Fin D) (n : Fin N) (k : Fin D) :
    (rowScatterDims N D E wf).resultIdx? (ix2 e k') idx = some (ix2 n k)
      ↔ (idx (ix2 e (0 : Fin 1))).toInt = (n.val : Int) ∧ k' = k := by
  rw [resultIdx?_eq_some_iff_forall]
  have h2 : ∀ P : Fin 2 → Prop, (∀ a, P a) ↔ P 0 ∧ P 1 := fun P => Fin.forall_fin_two
  refine (h2 _).trans ?_
  rw [scatter_start0, scatter_start1, scatter_window0, scatter_window1]
  show (idx (ix2 e (0 : Fin 1))).toInt + ((0 : Nat) : Int) = (n.val : Int) ∧ (0 : Int) + (k'.val : Int) = (k.val : Int) ↔ _
  constructor
  · rintro ⟨h0, h1⟩
    exact ⟨by omega, Fin.ext (by omega)⟩
  · rintro ⟨h0, rfl⟩
    exact ⟨by omega, by omega⟩

/-- THE ROW SCATTER-ADD READ AT `(n, k)`: the operand's element plus the sum of the updates `(e, k)` over the `e` whose
    scatter index `idx[e, 0]`, read as a signed integer and not clamped, is `n`. -/
theorem scatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowScatterDims N D E wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  rw [Finset.sum_filter, sum_idx2, Finset.sum_filter]
  refine Finset.sum_congr rfl fun e _ => ?_
  simp only [resultIdx?_eq_some_iff]
  by_cases hq : (idx (ix2 e (0 : Fin 1))).toInt = (n.val : Int)
  · simp only [hq, true_and, if_true]
    rw [Finset.sum_ite_eq']
    simp
  · simp [hq]

end Scatter

end Cert.Lib.RowGatherScatter

end
-- ==== Proof.LibVecScatter.lean ====
/-
  Scatter-add into a vector, read at an index.

  For a vector `x : [N]`, a column of integer positions `idx : [E, 1]` and updates `upd : [E]`, the accumulating scatter
  (jnp's `segment_sum` of a vector, `x.at[idx].add(upd)`) has element `n` equal to `x n` plus the sum of `upd e` over those
  `e` whose position `idx[e, 0]`, read as a signed integer and NOT clamped, is `n`: an update whose position lies outside
  `[0, N)` lands nowhere. The set of contributing `e` is the one the row scatter-add of a matrix `[N, D]` by the same
  positions has (LibRowGatherScatter), so a count kept as an extra column of a matrix and a count scattered on its own agree.
-/
import Idealize.ShloMosaic.PureOps.Ideal
import Idealize.ShloMosaic.Lib.ValueIdx
import proofs.«152618_j27986006901492_2_alg».proof.Proof.LibRowGatherScatter

noncomputable section

open scoped BigOperators

namespace Cert.Lib.VecScatter

open Idealize.ShloMosaic Idealize.ShloMosaic.ValueIdx

/-- The scatter's dimension numbers for an operand `[N]`, scatter indices `[E, 1]` and updates `[E]`: the updates have no
    window axis, the operand's one axis is inserted and is the one the scatter index names; the index vector lies along
    axis 1 of the scatter indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-one index is its one coordinate. -/
def idxEquiv1 {n : Nat} : (⟨1, ![n]⟩ : Shape).Idx ≃ Fin n where
  toFun j := j 0
  invFun a := ix1 a
  left_inv j := (eq_ix1 j).symm
  right_inv _ := rfl

/-- A sum over a rank-one index set is the sum over the coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

variable {N E w : Nat} (wf : ScatterDims.WF ⟨1, ![N]⟩ ⟨2, ![E, 1]⟩ ⟨1, ![E]⟩ [] [0] [0] 1)

/-- The scatter-indices index the scatter reads for update index `e`: `[e, 0]`. -/
theorem scatter_siIdx (e : Fin E) (c : Fin (vecScatterDims N E wf).scatterDimsToOperandDims.length) :
    (vecScatterDims N E wf).siIdx (ix1 e) c = ix2 e (0 : Fin 1) := by
  funext b; refine Fin.ext ?_
  match b with
  | ⟨0, _⟩ => rfl
  | ⟨1, _⟩ =>
    have := c.isLt
    show c.val = 0
    simpa using this

/-- The start is the scatter index `idx[e, 0]`, read signed and not clamped. -/
theorem scatter_start0 (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  rw [scatter_siIdx]

/-- The one axis is inserted: no window coordinate. -/
theorem scatter_window0 (e : Fin E) : (vecScatterDims N E wf).window (ix1 e) 0 = 0 := by
  unfold ScatterDims.window
  rw [dif_neg]
  simp [ScatterDims.sKept, Shape.kept]

/-- WHERE AN UPDATE LANDS: update `e` lands on operand element `n` exactly when its scatter index `idx[e, 0]`, read as a
    signed integer, is `n`. -/
theorem resultIdx?_eq_some_iff (idx : IVec ⟨2, ![E, 1]⟩ w) (e : Fin E) (n : Fin N) :
    (vecScatterDims N E wf).resultIdx? (ix1 e) idx = some (ix1 n)
      ↔ (idx (ix2 e (0 : Fin 1))).toInt = (n.val : Int) := by
  rw [Cert.Lib.RowGatherScatter.resultIdx?_eq_some_iff_forall]
  have h1 : ∀ P : Fin 1 → Prop, (∀ a, P a) ↔ P 0 := fun P => Fin.forall_fin_one
  refine (h1 _).trans ?_
  rw [scatter_start0, scatter_window0]
  show (idx (ix2 e (0 : Fin 1))).toInt + ((0 : Nat) : Int) = (n.val : Int) ↔ _
  constructor <;> intro h <;> omega

/-- THE VECTOR SCATTER-ADD READ AT `n`: the operand's element plus the sum of the updates `e` over the `e` whose scatter
    index `idx[e, 0]`, read as a signed integer and not clamped, is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [resultIdx?_eq_some_iff]

end Cert.Lib.VecScatter

end
-- ==== Proof.LibSegmentSum.lean ====
/-
  Per-node sums over the in-edges, and the per-node mean.

  `inEdges dst n` is the set of edges `e` whose destination `dst e`, read as a signed integer, is the node `n` (an edge whose
  destination is outside `[0, N)` is an in-edge of no node). A scatter-add from a table of zeros by the column of
  destinations is, at node `n`, zero plus the sum over `inEdges dst n`: of a row of a matrix of any width (`rows_apply`) and
  of an entry of a vector (`vec_apply`). So the per-node feature sums and the in-degree are the same numbers whether the
  degree is scattered on its own, as a vector of ones, or as an extra column of ones appended to the features.
  `nodeMean` is the mean both programs compute from them: the feature sum over `max (degree, 1)`.
-/
import Idealize.ShloMosaic.PureOps.Ideal
import Idealize.ShloMosaic.Lib.ValueIdx
import Idealize.ShloMosaic.Lib.Pipeline.Value
import proofs.«152618_j27986006901492_2_alg».proof.Proof.LibRowGatherScatter
import proofs.«152618_j27986006901492_2_alg».proof.Proof.LibVecScatter

noncomputable section

open scoped BigOperators

namespace Cert.SegmentSum

open Idealize.ShloMosaic Idealize.ShloMosaic.ValueIdx Cert.Lib.RowGatherScatter Cert.Lib.VecScatter

variable {N E : Nat}

/-- The edges into node `n`: those whose destination, read as a signed integer, is `n`. -/
def inEdges (dst : IVec ⟨1, ![E]⟩ 32) (n : Fin N) : Finset (Fin E) :=
  Finset.univ.filter fun e => (dst (ix1 e)).toInt = (n.val : Int)

/-- The destinations as a column: entry `(e, 0)` is `dst e`. -/
theorem col_apply (hbI : (⟨1, ![E]⟩ : Shape).BroadcastsInDim ⟨2, ![E, 1]⟩ (![0] : Fin 1 → Fin 2))
    (dst : IVec ⟨1, ![E]⟩ 32) (e : Fin E) :
    broadcastInDim (⟨2, ![E, 1]⟩ : Shape) ![0] hbI dst (ix2 e (0 : Fin 1)) = dst (ix1 e) :=
  broadcastInDim_apply _ hbI dst _ (ix1 e) (fun a => match a with
    | ⟨0, _⟩ => by
      show e.val = if E = 1 then 0 else e.val
      have := e.isLt
      split <;> omega)

/-- A splat of a float word read at any index is the word's value. -/
theorem splat_apply {s : Shape} (hb : (⟨0, ![]⟩ : Shape).BroadcastsInDim s (![] : Fin 0 → Fin s.rank)) (w : BitVec 32)
    (i : s.Idx) :
    broadcastInDim s ![] hb (constant (F := Ideal) (⟨0, ![]⟩ : Shape) .f32 w) i = Ideal.ofBits .f32 w :=
  broadcastInDim_apply _ hb _ i ix0 (fun a => a.elim0)

/-- ROWS SUMMED PER NODE: the scatter-add of the rows of `upd` from zeros by the column of destinations holds, at
    `(n, k)`, zero plus the sum of `upd (e, k)` over the edges into `n`. -/
theorem rows_apply {D : Nat} (wf : ScatterDims.WF ⟨2, ![N, D]⟩ ⟨2, ![E, 1]⟩ ⟨2, ![E, D]⟩ [1] [0] [0] 1)
    (hb0 : (⟨0, ![]⟩ : Shape).BroadcastsInDim ⟨2, ![N, D]⟩ (![] : Fin 0 → Fin 2))
    (hbI : (⟨1, ![E]⟩ : Shape).BroadcastsInDim ⟨2, ![E, 1]⟩ (![0] : Fin 1 → Fin 2))
    (dst : IVec ⟨1, ![E]⟩ 32) (upd : FVec Ideal ⟨2, ![E, D]⟩ .f32) (n : Fin N) (k : Fin D) :
    Host.scatterAdd (F := Ideal) (rowScatterDims N D E wf)
        (broadcastInDim (⟨2, ![N, D]⟩ : Shape) ![] hb0 (constant (F := Ideal) (⟨0, ![]⟩ : Shape) .f32 0x00000000#32))
        (broadcastInDim (⟨2, ![E, 1]⟩ : Shape) ![0] hbI dst) upd (ix2 n k)
      = Ideal.ofBits .f32 0x00000000#32 + ∑ e ∈ inEdges dst n, upd (ix2 e k) := by
  show Ideal.hostScatterAdd _ _ _ _ _ = _
  rw [scatterAdd_rows_apply, splat_apply]
  unfold inEdges
  congr 1
  refine Finset.sum_congr (Finset.filter_congr fun e _ => ?_) fun _ _ => rfl
  rw [col_apply hbI dst e]

/-- ENTRIES SUMMED PER NODE: the same for a vector of updates. -/
theorem vec_apply (wf : ScatterDims.WF ⟨1, ![N]⟩ ⟨2, ![E, 1]⟩ ⟨1, ![E]⟩ [] [0] [0] 1)
    (hb0 : (⟨0, ![]⟩ : Shape).BroadcastsInDim ⟨1, ![N]⟩ (![] : Fin 0 → Fin 1))
    (hbI : (⟨1, ![E]⟩ : Shape).BroadcastsInDim ⟨2, ![E, 1]⟩ (![0] : Fin 1 → Fin 2))
    (dst : IVec ⟨1, ![E]⟩ 32) (upd : FVec Ideal ⟨1, ![E]⟩ .f32) (n : Fin N) :
    Host.scatterAdd (F := Ideal) (vecScatterDims N E wf)
        (broadcastInDim (⟨1, ![N]⟩ : Shape) ![] hb0 (constant (F := Ideal) (⟨0, ![]⟩ : Shape) .f32 0x00000000#32))
        (broadcastInDim (⟨2, ![E, 1]⟩ : Shape) ![0] hbI dst) upd (ix1 n)
      = Ideal.ofBits .f32 0x00000000#32 + ∑ e ∈ inEdges dst n, upd (ix1 e) := by
  show Ideal.hostScatterAdd _ _ _ _ _ = _
  rw [scatterAdd_vec_apply, splat_apply]
  unfold inEdges
  congr 1
  refine Finset.sum_congr (Finset.filter_congr fun e _ => ?_) fun _ _ => rfl
  rw [col_apply hbI dst e]

/-- THE PER-NODE MEAN of the in-edge features: at `(n, f)` the sum of feature `f` over the edges into `n`, over the
    in-degree of `n` clamped below by one. (Zero, one: the f32 words the programs write.) -/
def nodeMean {D : Nat} (ef : FVec Ideal ⟨2, ![E, D]⟩ .f32) (dst : IVec ⟨1, ![E]⟩ 32) :
    (⟨2, ![N, D]⟩ : Shape).Idx → EReal := fun i =>
  Ideal.div (Ideal.ofBits .f32 0x00000000#32 + ∑ e ∈ inEdges dst (i 0 : Fin N), ef (ix2 e (i 1 : Fin D)))
    (max (Ideal.ofBits .f32 0x00000000#32 + ∑ _e ∈ inEdges dst (i 0 : Fin N), Ideal.ofBits .f32 0x3F800000#32)
      (Ideal.ofBits .f32 0x3F800000#32))

end Cert.SegmentSum

end
-- ==== Proof.LibConcatPair.lean ====
/-
  GENERAL LEMMAS: two matrices joined side by side, read at an entry.

  The concatenation along axis 1 of an [n, a] matrix A and an [n, b] matrix B into an [n, c] matrix (c = a + b, as the
  concatenation's own evidence says) reads, at (k, j'), A at (k, j) when j' = j < a, and B at (k, q) when j' = a + q.
  For every n, a, b, c and element type; for tpu.concatenate and stablehlo.concatenate alike (one function).
-/
import Idealize.ShloMosaic.Lib.Pipeline.Value
import Idealize.ShloMosaic.Lib.ValueIdx

noncomputable section

namespace Cert.LibConcatPair

open Idealize.ShloMosaic Idealize.ShloMosaic.ValueIdx

variable {α : Type} {n a b c : Nat}

/-- A column of the left piece. -/
theorem left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1)
    (k : Fin n) (j : Fin a) (j' : Fin c) (hj : j'.val = j.val) :
    concatenate (⟨2, ![n, c]⟩ : Shape) 1 [⟨⟨2, ![n, a]⟩, A⟩, ⟨⟨2, ![n, b]⟩, B⟩] h (ix2 k j') = A (ix2 k j) :=
  concatenate_pair_apply_left 1 A B h (ix2 k j') rfl (ix2 k j) (fun d => by
    match d with
    | ⟨0, _⟩ => rfl
    | ⟨1, _⟩ => exact hj.symm)

/-- A column of the right piece. -/
theorem right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1)
    (k : Fin n) (q : Fin b) (j' : Fin c) (hj : j'.val = a + q.val) :
    concatenate (⟨2, ![n, c]⟩ : Shape) 1 [⟨⟨2, ![n, a]⟩, A⟩, ⟨⟨2, ![n, b]⟩, B⟩] h (ix2 k j') = B (ix2 k q) :=
  concatenate_pair_apply_right 1 A B h (ix2 k j') rfl rfl (ix2 k q) (fun d hd => by
    match d with
    | ⟨0, _⟩ => rfl
    | ⟨1, _⟩ => exact absurd rfl hd) (by show q.val + a = j'.val; omega)

end Cert.LibConcatPair

end
-- ==== Proof.KernelNode.lean ====
/-
  The kernel's per-node mean is `nodeMean`.

  The kernel appends a column of ones to the edge features and sums the 49 columns per destination node in one pass. At
  `(n, f)`, `f < 48`, the summed matrix holds the sum of feature `f` over the edges into `n` (a column of the left piece of
  the concatenation), and at `(n, 48)` the sum of ones over those edges, the in-degree (the appended column). Slicing the
  first 48 columns and the last one apart, clamping the degree below by one and dividing gives the mean.
-/
import proofs.«152618_j27986006901492_2_alg».proof.Proof.KernelStages
import proofs.«152618_j27986006901492_2_alg».proof.Proof.LibSegmentSum
import proofs.«152618_j27986006901492_2_alg».proof.Proof.LibConcatPair
import Idealize.ShloMosaic.Lib.Pipeline.Value

noncomputable section

open scoped BigOperators

namespace Cert.KernelIdeal.Stages

open Cert.KernelIdeal Idealize.ShloMosaic Idealize.ShloMosaic.ValueIdx Cert.SegmentSum

variable (ef : FVec Ideal S1600000x48 .f32) (dst : IVec S1600000 32)

/-- Column `f < 48` of the per-node sums: the sum of feature `f` over the edges into `n`. -/
theorem cnt_feature (n : Fin 50000) (f : Fin 48) (f' : Fin 49) (hf : f'.val = f.val) :
    cntK ef dst (ix2 n f') = Ideal.ofBits .f32 0x00000000#32 + ∑ e ∈ inEdges dst n, ef (ix2 e f) := by
  unfold cntK
  refine (rows_apply Facts₀.scatter_S50000x49_S1600000x1_S1600000x49_1_0_0_1_wf Facts₀.bcast_S_S50000x49
    Facts₀.bcast_S1600000_S1600000x1_0 dst _ n f').trans ?_
  refine congrArg (Ideal.ofBits .f32 0x00000000#32 + ·) (Finset.sum_congr rfl fun e _ => ?_)
  exact Cert.LibConcatPair.left ef _ Facts₀.concatenates_S1600000x48_S1600000x1_S1600000x49_d1 e f f' hf

/-- Column 48 of the per-node sums: the in-degree of `n`, a sum of ones. -/
theorem cnt_degree (n : Fin 50000) (f' : Fin 49) (hf : f'.val = 48) :
    cntK ef dst (ix2 n f')
      = Ideal.ofBits .f32 0x00000000#32 + ∑ _e ∈ inEdges dst n, Ideal.ofBits .f32 0x3F800000#32 := by
  unfold cntK
  refine (rows_apply Facts₀.scatter_S50000x49_S1600000x1_S1600000x49_1_0_0_1_wf Facts₀.bcast_S_S50000x49
    Facts₀.bcast_S1600000_S1600000x1_0 dst _ n f').trans ?_
  refine congrArg (Ideal.ofBits .f32 0x00000000#32 + ·) (Finset.sum_congr rfl fun e _ => ?_)
  refine (Cert.LibConcatPair.right ef _ Facts₀.concatenates_S1600000x48_S1600000x1_S1600000x49_d1 e (0 : Fin 1) f'
    (by rw [hf]; rfl)).trans ?_
  exact splat_apply Facts₀.bcast_S_S1600000x1 _ _

/-- The first 48 columns sliced out of the per-node sums: entry `(n, f)` is entry `(n, f)` of the 49-column table. -/
theorem slice_feature (n : Fin 50000) (f : Fin 48) (f' : Fin 49) (hf : f'.val = f.val) :
    extractStridedSlice S50000x48 ![0, 0] (cntK ef dst) Facts₀.slices_S50000x49_S50000x48_0_0 (ix2 n f)
      = cntK ef dst (ix2 n f') := by
  refine extractStridedSlice_apply _ _ _ _ _ ?_
  intro a
  match a with
  | ⟨0, _⟩ => show n.val = 0 + n.val; omega
  | ⟨1, _⟩ => show f'.val = 0 + f.val; omega

/-- The last column sliced out of the per-node sums: entry `(n, 0)` is entry `(n, 48)` of the 49-column table. -/
theorem slice_degree (n : Fin 50000) (f' : Fin 49) (hf : f'.val = 48) :
    extractStridedSlice S50000x1 ![0, 48] (cntK ef dst) Facts₀.slices_S50000x49_S50000x1_0_48 (ix2 n (0 : Fin 1))
      = cntK ef dst (ix2 n f') := by
  refine extractStridedSlice_apply _ _ _ _ _ ?_
  intro a
  match a with
  | ⟨0, _⟩ => show n.val = 0 + n.val; omega
  | ⟨1, _⟩ => show f'.val = 48 + 0; omega

/-- The host's quotient of two arrays, at an entry. -/
theorem hostDivf_apply {s : Shape} {φ : FTy} (x y : FVec Ideal s φ) (i : s.Idx) :
    Host.divf (F := Ideal) x y i = Ideal.div (x i) (y i) := rfl

/-- The elementwise maximum of two arrays, at an entry. -/
theorem maximumf_apply {s : Shape} {φ : FTy} (x y : FVec Ideal s φ) (i : s.Idx) :
    maximumf (F := Ideal) x y i = max (x i) (y i) := rfl

/-- THE KERNEL'S NODE MEAN IS `nodeMean`: the numerator is the slice of the first 48 columns of the per-node sums, the
    denominator the last column, clamped below by one and read through its two broadcasts. -/
theorem nodeK_eq : nodeK ef dst = nodeMean ef dst := by
  funext i
  obtain ⟨n, f, rfl⟩ : ∃ (n : Fin 50000) (f : Fin 48), i = ix2 n f := ⟨i 0, i 1, eq_ix2 i⟩
  unfold nodeK nodeMean
  rw [hostDivf_apply]
  refine congrArg₂ Ideal.div ?_ ?_
  · exact (slice_feature ef dst n f (⟨f.val, by omega⟩ : Fin 49) rfl).trans (cnt_feature ef dst n f _ rfl)
  · refine (broadcastInDim_apply _ Facts₀.bcast_S50000x1_S50000x48_0_1 _ (ix2 n f) (ix2 n (0 : Fin 1)) (fun a => by
        match a with
        | ⟨0, _⟩ => show n.val = if (50000 : Nat) = 1 then 0 else n.val; rw [if_neg (by decide)]
        | ⟨1, _⟩ => show 0 = if (1 : Nat) = 1 then 0 else f.val; rw [if_pos rfl])).trans ?_
    refine (broadcastInDim_apply _ Facts₀.bcast_S50000_S50000x1_0 _ (ix2 n (0 : Fin 1)) (ix1 n) (fun a => by
        match a with
        | ⟨0, _⟩ => show n.val = if (50000 : Nat) = 1 then 0 else n.val; rw [if_neg (by decide)])).trans ?_
    rw [maximumf_apply]
    refine congrArg₂ max ?_ (splat_apply Facts₀.bcast_S_S50000 _ _)
    refine (shapeCast_apply _ Facts₀.shapeCasts_S50000x1_S50000 (ix1 n) (ix2 n (0 : Fin 1)) (by
        rw [Shape.rowMajor_val_two, Shape.rowMajor_val_one]
        show n.val * 1 + 0 = n.val
        omega)).trans ?_
    exact (slice_degree ef dst n (⟨48, by omega⟩ : Fin 49) rfl).trans (cnt_degree ef dst n _ rfl)

end Cert.KernelIdeal.Stages

end
-- ==== Proof.KernelTail.lean ====
/-
  The kernel's result at an entry.

  After the region the host gathers rows of the table `g` at the sources and at the destinations, adds the two and adds
  the bias row. A gather reads, for edge `e`, the row whose number is the (wrapped) index of `e`, read as a signed integer
  and clamped into `[0, N − 1]`: `rowAt x e`. So entry `(e, o)` of the result is `g (rowAt src e, o) + g (rowAt dst e, o) + b o`.
-/
import proofs.«152618_j27986006901492_2_alg».proof.Proof.KernelStages
import proofs.«152618_j27986006901492_2_alg».proof.Proof.LibRowGatherScatter
import Idealize.ShloMosaic.Lib.Pipeline.Value

noncomputable section

namespace Cert.KernelIdeal.Stages

open Cert.KernelIdeal Idealize.ShloMosaic Idealize.ShloMosaic.ValueIdx Cert.Lib.RowGatherScatter

/-- The node row edge `e` reads through the index vector `x`. -/
abbrev rowAt (x : IVec S1600000 32) (e : Fin 1600000) : Fin 50000 := rowOf 50000 (by decide) (wrapIdx x) e

/-- The bias vector broadcast to a row and then down the edges, at `(e, o)`, is `b o`. -/
theorem bias_apply (b : FVec Ideal S48 .f32) (e : Fin 1600000) (o : Fin 48) :
    broadcastInDim S1600000x48 ![0, 1] Facts₀.bcast_S1x48_S1600000x48_0_1
        (broadcastInDim S1x48 ![1] Facts₀.bcast_S48_S1x48_1 b) (ix2 e o) = b (ix1 o) :=
  (broadcastInDim_apply _ Facts₀.bcast_S1x48_S1600000x48_0_1 _ (ix2 e o) (ix2 (0 : Fin 1) o) (fun a => by
      match a with
      | ⟨0, _⟩ => show 0 = if (1 : Nat) = 1 then 0 else e.val; rw [if_pos rfl]
      | ⟨1, _⟩ => show o.val = if (48 : Nat) = 1 then 0 else o.val; rw [if_neg (by decide)])).trans
    (broadcastInDim_apply _ Facts₀.bcast_S48_S1x48_1 b (ix2 (0 : Fin 1) o) (ix1 o) (fun a => by
      match a with
      | ⟨0, _⟩ => show o.val = if (48 : Nat) = 1 then 0 else o.val; rw [if_neg (by decide)]))

/-- THE KERNEL'S RESULT AT `(e, o)`. -/
theorem tailK_apply (g : FVec Ideal S50000x48 .f32) (src dst : IVec S1600000 32) (b : FVec Ideal S48 .f32)
    (e : Fin 1600000) (o : Fin 48) :
    tailK g src dst b (ix2 e o) = (g (ix2 (rowAt src e) o) + g (ix2 (rowAt dst e) o)) + b (ix1 o) := by
  unfold tailK
  exact congrArg₂ (· + ·)
    (congrArg₂ (· + ·)
      (gather_rows_apply (by decide) Facts₀.gather_S50000x48_S1600000x1_S1600000x48_1_0_n_n_0_1_148_wf g (wrapIdx src) e o)
      (gather_rows_apply (by decide) Facts₀.gather_S50000x48_S1600000x1_S1600000x48_1_0_n_n_0_1_148_wf g (wrapIdx dst) e o))
    (bias_apply b e o)

end Cert.KernelIdeal.Stages

end
-- ==== Proof.RefNode.lean ====
/-
  The reference's per-node mean is `nodeMean`.

  The reference sums the edge features per destination node into an N × 48 table, and separately sums a vector of ones per
  destination node into the in-degree; it clamps the degree below by one, broadcasts it along the features and divides.
-/
import proofs.«152618_j27986006901492_2_alg».proof.Proof.Gen.ReferenceIdeal.Read
import proofs.«152618_j27986006901492_2_alg».proof.Proof.LibSegmentSum

noncomputable section

open scoped BigOperators

namespace Cert.ReferenceIdeal.RefNode

open Cert.ReferenceIdeal Cert.ReferenceIdeal.Read Idealize.ShloMosaic Idealize.ShloMosaic.ValueIdx Cert.SegmentSum

/-- THE REFERENCE'S NODE MEAN IS `nodeMean`. -/
theorem mean_eq (x0 : FVec Ideal S1600000x48 .f32) (x2 : IVec S1600000 32) :
    val_main_v11 (F := Ideal) x0 x2 = nodeMean x0 x2 := by
  funext i
  obtain ⟨n, f, rfl⟩ : ∃ (n : Fin 50000) (f : Fin 48), i = ix2 n f := ⟨i 0, i 1, eq_ix2 i⟩
  rw [val_main_v11_apply, val_main_v10_apply, val_main_v9_apply, val_main_v8_apply, val_main_v7_apply]
  have e9 : idx_main_v9 (idx_main_v10 (ix2 n f)) = ix1 n := funext fun a => Fin.ext (by
    match a with
    | ⟨0, _⟩ => rfl)
  rw [e9]
  unfold nodeMean
  refine congrArg₂ Ideal.div ?_ (congrArg₂ max ?_ ?_)
  · exact rows_apply Facts₀.scatter_S50000x48_S1600000x1_S1600000x48_1_0_0_1_wf Facts₀.bcast_S_S50000x48
      Facts₀.bcast_S1600000_S1600000x1_0 x2 x0 n f
  · refine (vec_apply Facts₀.scatter_S50000_S1600000x1_S1600000_n_0_0_1_wf Facts₀.bcast_S_S50000
      Facts₀.bcast_S1600000_S1600000x1_0 x2 _ n).trans ?_
    refine congrArg (Ideal.ofBits .f32 0x00000000#32 + ·) (Finset.sum_congr rfl fun e _ => ?_)
    exact splat_apply Facts₀.bcast_S_S1600000 _ _
  · rfl

end Cert.ReferenceIdeal.RefNode

end
-- ==== Proof.RefTail.lean ====
/-
  The reference's result at an entry.

  The reference gathers rows of its node table `T` at the sources and at the destinations, adds them, halves the sum,
  multiplies by the transposed weight and adds the bias row. With `srcRow e`, `dstRow e` the rows edge `e` reads (the wrapped
  index read as a signed integer and clamped into `[0, N − 1]`), entry `(e, o)` is
  `(∑ₖ (½ · (T (srcRow e, k) + T (dstRow e, k))) · W (o, k)) + b o`.
-/
import proofs.«152618_j27986006901492_2_alg».proof.Proof.Gen.ReferenceIdeal.Read
import proofs.«152618_j27986006901492_2_alg».proof.Proof.LibRowGatherScatter

noncomputable section

open scoped BigOperators

namespace Cert.ReferenceIdeal.RefTail

open Cert.ReferenceIdeal Cert.ReferenceIdeal.Read Idealize.ShloMosaic Idealize.ShloMosaic.ValueIdx
open Cert.Lib.RowGatherScatter

/-- The node row edge `e` reads at its source, and at its destination. -/
abbrev srcRow (x1 : IVec S1600000 32) (e : Fin 1600000) : Fin 50000 :=
  rowOf 50000 (by decide) (val_main_v27 (F := Ideal) x1) e
abbrev dstRow (x2 : IVec S1600000 32) (e : Fin 1600000) : Fin 50000 :=
  rowOf 50000 (by decide) (val_main_v34 (F := Ideal) x2) e

variable (x0 : FVec Ideal S1600000x48 .f32) (x1 x2 : IVec S1600000 32)

/-- The table gathered at the sources, at `(e, k)`. -/
theorem gathered_src (e : Fin 1600000) (k : Fin 48) :
    val_main_v28 (F := Ideal) x0 x1 x2 (ix2 e k) = val_main_v21 (F := Ideal) x0 x1 x2 (ix2 (srcRow x1 e) k) :=
  gather_rows_apply (by decide) Facts₀.gather_S50000x48_S1600000x1_S1600000x48_1_0_n_n_0_1_148_wf _ _ e k

/-- The table gathered at the destinations, at `(e, k)`. -/
theorem gathered_dst (e : Fin 1600000) (k : Fin 48) :
    val_main_v35 (F := Ideal) x0 x1 x2 (ix2 e k) = val_main_v21 (F := Ideal) x0 x1 x2 (ix2 (dstRow x2 e) k) :=
  gather_rows_apply (by decide) Facts₀.gather_S50000x48_S1600000x1_S1600000x48_1_0_n_n_0_1_148_wf _ _ e k

/-- THE REFERENCE'S RESULT AT `(e, o)`. -/
theorem out_apply (x3 : FVec Ideal S48x48 .f32) (x4 : FVec Ideal S48 .f32) (e : Fin 1600000) (o : Fin 48) :
    val_main_v43 (F := Ideal) x0 x1 x2 x3 x4 (ix2 e o)
      = (∑ k : Fin 48, (Ideal.ofBits .f32 0x3F000000#32
            * (val_main_v21 (F := Ideal) x0 x1 x2 (ix2 (srcRow x1 e) k)
              + val_main_v21 (F := Ideal) x0 x1 x2 (ix2 (dstRow x2 e) k))) * x3 (ix2 o k))
        + x4 (ix1 o) := by
  rw [val_main_v43_apply, val_main_v40_apply, val_main_v42_apply, val_main_v41_apply]
  have eb : idx_main_v41 (idx_main_v42 (ix2 e o)) = ix1 o := funext fun a => Fin.ext (by
    match a with
    | ⟨0, _⟩ => rfl)
  rw [eb]
  refine congrArg (· + x4 (ix1 o)) (Finset.sum_congr rfl fun k _ => ?_)
  have el : lidx_main_v40 (ix2 e o) k = ix2 e k := funext fun a => Fin.ext (by
    match a with
    | ⟨0, _⟩ => rfl
    | ⟨1, _⟩ => rfl)
  have er : idx_main_v39 (ridx_main_v40 (ix2 e o) k) = ix2 o k := funext fun a => Fin.ext (by
    match a with
    | ⟨0, _⟩ => rfl
    | ⟨1, _⟩ => rfl)
  rw [el, val_main_v39_apply, er, val_main_v38_apply, val_main_v37_apply, val_main_v36_apply, gathered_src, gathered_dst]
  rfl

end Cert.ReferenceIdeal.RefTail

end
-- ==== Proof.RealDef.lean ====
/-
  "Every entry is a real number", for an array read on the extended reals.

  On the extended reals a float is a real number, +∞ or -∞. Sums and products of real numbers obey the laws of a
  field; at the infinities distributivity and cancellation fail. A value proof therefore first records that the arrays it
  handles hold real numbers only.
-/
import Idealize.ShloMosaic.PureOps.Ideal

namespace Cert.Spec

/-- Every entry of the array is a real number. -/
def IsReal {ι : Type} (f : ι → EReal) : Prop := ∀ i, ∃ r : ℝ, f i = (r : EReal)

end Cert.Spec
-- ==== Proof.LibReal.lean ====
/-
  Closure lemmas for "every entry is a real number" (`Cert.Spec.IsReal`) under the array operations of a
  host program read at the extended reals (`F := Ideal`), where a float is an element of `[-∞, +∞]` and
  every operation is its exact textbook one.

  The extended reals are not a ring: `⊤ + ⊥`, `0 · ⊤` have conventional values, and sums do not reassociate
  through them. A value proof over them therefore first shows that the arrays it handles hold real numbers only,
  and computes in `ℝ` from there. This file supplies that first step, operation by operation:

  * `IsPos f`                    : every entry of `f` is a positive real number (`IsPos.isReal`: so a real one);
  * `exists_real_sum`, `exists_nonneg_real_sum` : a finite sum of (nonnegative) reals is a (nonnegative) real;
  * `isReal_comp`, `isPos_comp` : a re-indexing (precomposition with any index map) of a real array is real —
    in particular `isReal_broadcastInDim` / `isPos_broadcastInDim` (`stablehlo.broadcast_in_dim`) and
    `isReal_gather` / `isPos_gather` (`stablehlo.gather`: each result element is one operand element);
  * `isReal_addf`, `isReal_mulf`, `isPos_mulf` : the elementwise sum and product;
  * `isReal_scatterAdd`, `isPos_scatterAdd` : the accumulating scatter — each operand element plus the finite
    sum of the update elements that land on it;
  * `isReal_dotGeneral` : `stablehlo.dot_general` — each element a finite sum of products;
  * `ofBits_one_f32`, `isPos_constant_one` : the f32 pattern `0x3F800000` is the number 1, so its splat is positive;
  * `isPos_rsqrt` : the reciprocal square root of a positive real `r` is the positive real `(√r)⁻¹` (at `0`, at a
    negative number and at `±∞` it is not a positive real, which is why positivity is tracked).
-/
import Idealize.ShloMosaic.PureOps.Ideal
import Idealize.ShloMosaic.PureOps.Ideal.Laws
import Idealize.ShloMosaic.Lib.ValueIdx
import proofs.«152618_j27986006901492_2_alg».proof.Proof.RealDef

noncomputable section

namespace Cert.Real

open Idealize.ShloMosaic Cert.Spec

/-- Every entry is a positive real number. -/
def IsPos {ι : Type} (f : ι → EReal) : Prop := ∀ i, ∃ r : ℝ, 0 < r ∧ f i = (r : EReal)

/-- A positive real is a real. -/
theorem IsPos.isReal {ι : Type} {f : ι → EReal} (h : IsPos f) : IsReal f := fun i => by
  obtain ⟨r, _, hr⟩ := h i
  exact ⟨r, hr⟩

/-! ## Finite sums -/

/-- A finite sum of real numbers, taken in the extended reals, is the real number that is their sum. -/
theorem exists_real_sum {α : Type} (S : Finset α) (f : α → EReal) (h : ∀ j ∈ S, ∃ r : ℝ, f j = (r : EReal)) :
    ∃ r : ℝ, ∑ j ∈ S, f j = (r : EReal) := by
  induction S using Finset.cons_induction with
  | empty => exact ⟨0, by rw [Finset.sum_empty, EReal.coe_zero]⟩
  | cons a S ha ih =>
    obtain ⟨r, hr⟩ := h a (Finset.mem_cons_self a S)
    obtain ⟨t, ht⟩ := ih fun j hj => h j (Finset.mem_cons_of_mem hj)
    exact ⟨r + t, by rw [Finset.sum_cons, hr, ht, EReal.coe_add]⟩

/-- A finite sum of nonnegative real numbers is a nonnegative real number. -/
theorem exists_nonneg_real_sum {α : Type} (S : Finset α) (f : α → EReal)
    (h : ∀ j ∈ S, ∃ r : ℝ, 0 ≤ r ∧ f j = (r : EReal)) : ∃ r : ℝ, 0 ≤ r ∧ ∑ j ∈ S, f j = (r : EReal) := by
  induction S using Finset.cons_induction with
  | empty => exact ⟨0, le_refl 0, by rw [Finset.sum_empty, EReal.coe_zero]⟩
  | cons a S ha ih =>
    obtain ⟨r, hr0, hr⟩ := h a (Finset.mem_cons_self a S)
    obtain ⟨t, ht0, ht⟩ := ih fun j hj => h j (Finset.mem_cons_of_mem hj)
    exact ⟨r + t, add_nonneg hr0 ht0, by rw [Finset.sum_cons, hr, ht, EReal.coe_add]⟩

/-! ## Re-indexings: each result element is one operand element -/

theorem isReal_comp {ι κ : Type} {f : ι → EReal} (h : IsReal f) (g : κ → ι) : IsReal fun j => f (g j) :=
  fun j => h (g j)

theorem isPos_comp {ι κ : Type} {f : ι → EReal} (h : IsPos f) (g : κ → ι) : IsPos fun j => f (g j) :=
  fun j => h (g j)

/-- `stablehlo.broadcast_in_dim` reads one operand element per result element. -/
theorem isReal_broadcastInDim {s t : Shape} (dims : Fin s.rank → Fin t.rank) (h : s.BroadcastsInDim t dims)
    {x : s.Idx → EReal} (hx : IsReal x) : IsReal (broadcastInDim t dims h x) :=
  fun _ => hx _

theorem isPos_broadcastInDim {s t : Shape} (dims : Fin s.rank → Fin t.rank) (h : s.BroadcastsInDim t dims)
    {x : s.Idx → EReal} (hx : IsPos x) : IsPos (broadcastInDim t dims h x) :=
  fun _ => hx _

/-- `stablehlo.gather` reads one operand element per result element, whatever the indices hold. -/
theorem isReal_gather {s si t : Shape} {w : Nat} (d : GatherDims s si t) {x : s.Idx → EReal} (idx : IVec si w)
    (hx : IsReal x) : IsReal (Host.gather d x idx) :=
  fun _ => hx _

theorem isPos_gather {s si t : Shape} {w : Nat} (d : GatherDims s si t) {x : s.Idx → EReal} (idx : IVec si w)
    (hx : IsPos x) : IsPos (Host.gather d x idx) :=
  fun _ => hx _

/-! ## Elementwise sum and product -/

theorem isReal_addf {s : Shape} {φ : FTy} {x y : FVec Ideal s φ} (hx : IsReal x) (hy : IsReal y) :
    IsReal (addf (F := Ideal) x y) := fun i => by
  obtain ⟨a, ha⟩ := hx i
  obtain ⟨b, hb⟩ := hy i
  exact ⟨a + b, by show x i + y i = _; rw [ha, hb, EReal.coe_add]⟩

theorem isReal_mulf {s : Shape} {φ : FTy} {x y : FVec Ideal s φ} (hx : IsReal x) (hy : IsReal y) :
    IsReal (mulf (F := Ideal) x y) := fun i => by
  obtain ⟨a, ha⟩ := hx i
  obtain ⟨b, hb⟩ := hy i
  exact ⟨a * b, by show x i * y i = _; rw [ha, hb, EReal.coe_mul]⟩

theorem isPos_mulf {s : Shape} {φ : FTy} {x y : FVec Ideal s φ} (hx : IsPos x) (hy : IsPos y) :
    IsPos (mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

/-! ## The accumulating scatter: an operand element plus the updates that land on it -/

theorem isReal_scatterAdd {s si u : Shape} {φ : FTy} {w : Nat} (d : ScatterDims s si u) {x : FVec Ideal s φ}
    (idx : IVec si w) {upd : FVec Ideal u φ} (hx : IsReal x) (hu : IsReal upd) :
    IsReal (Host.scatterAdd (F := Ideal) d x idx upd) := fun i => by
  have key : ∀ S : Finset u.Idx, ∃ r : ℝ, x i + ∑ j ∈ S, upd j = (r : EReal) := fun S => by
    obtain ⟨a, ha⟩ := hx i
    obtain ⟨t, ht⟩ := exists_real_sum S upd fun j _ => hu j
    exact ⟨a + t, by rw [ha, ht, EReal.coe_add]⟩
  exact key _

/-- Positive operand elements and positive updates (a count of ones onto ones, say) give positive sums. -/
theorem isPos_scatterAdd {s si u : Shape} {φ : FTy} {w : Nat} (d : ScatterDims s si u) {x : FVec Ideal s φ}
    (idx : IVec si w) {upd : FVec Ideal u φ} (hx : IsPos x) (hu : IsPos upd) :
    IsPos (Host.scatterAdd (F := Ideal) d x idx upd) := fun i => by
  have key : ∀ S : Finset u.Idx, ∃ r : ℝ, 0 < r ∧ x i + ∑ j ∈ S, upd j = (r : EReal) := fun S => by
    obtain ⟨a, ha0, ha⟩ := hx i
    obtain ⟨t, ht0, ht⟩ := exists_nonneg_real_sum S upd fun j _ => by
      obtain ⟨b, hb0, hb⟩ := hu j
      exact ⟨b, hb0.le, hb⟩
    exact ⟨a + t, add_pos_of_pos_of_nonneg ha0 ht0, by rw [ha, ht, EReal.coe_add]⟩
  exact key _

/-! ## The contraction: a finite sum of products -/

theorem isReal_dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral (F := Ideal) d prec l r) := fun j => by
  obtain ⟨t, ht⟩ := exists_real_sum Finset.univ (fun k : d.contr.Idx => l (d.lhsIdx j k) * r (d.rhsIdx j k))
    fun k _ => by
      obtain ⟨a, ha⟩ := hl (d.lhsIdx j k)
      obtain ⟨b, hb⟩ := hr (d.rhsIdx j k)
      exact ⟨a * b, by rw [ha, hb, EReal.coe_mul]⟩
  exact ⟨t, (Ideal.dotGeneral_apply d prec .single l r j).trans ht⟩

/-! ## The constant one, and the reciprocal square root of positive numbers -/

/-- The f32 pattern `0x3F800000` denotes the number 1. -/
theorem ofBits_one_f32 : Ideal.ofBits .f32 0x3F800000#32 = 1 := by
  simp [Ideal.ofBits, Ideal.ieee, -EReal.coe_mul]; norm_num

theorem isPos_constant_one (s : Shape) : IsPos (constant (F := Ideal) s .f32 0x3F800000#32) := fun _ =>
  ⟨1, one_pos, by show Ideal.ofBits .f32 0x3F800000#32 = _; rw [ofBits_one_f32, EReal.coe_one]⟩

/-- At a positive real `r` the reciprocal square root is the positive real `(√r)⁻¹`. -/
theorem isPos_rsqrt {s : Shape} {φ : FTy} {x : FVec Ideal s φ} (hx : IsPos x) :
    IsPos (Host.rsqrt (F := Ideal) x) := fun i => by
  obtain ⟨r, hr, hxi⟩ := hx i
  refine ⟨(Real.sqrt r)⁻¹, inv_pos.mpr (Real.sqrt_pos.mpr hr), ?_⟩
  show Ideal.rsqrt (x i) = _
  rw [hxi, Ideal.rsqrt_coe, if_neg (not_lt.mpr hr.le), if_neg hr.ne']

end Cert.Real

end
-- ==== Proof.LibRealQuotient.lean ====
/-
  More closure lemmas for "every entry is a real number" on the extended reals (`F := Ideal`), for a mean taken as a sum
  divided by a clamped count:

  * `isPos_maximumf_right` : the elementwise maximum of a real array with a positive array is positive (a count clamped
    below by one, `max (deg, 1)`, whatever the count is);
  * `isReal_hostDivf`      : the host's quotient of a real array by a positive array is real (on the extended reals
    `x / y` is `x · y⁻¹` for `y ≠ 0`; at `y = 0` it is an infinity, which is why positivity is asked);
  * `isReal_constant_zero` : the splat of the f32 zero word is real;
  * `ofBits_half_f32`      : the f32 word `0x3F000000` is the real number one half.
-/
import Idealize.ShloMosaic.PureOps.Ideal
import Idealize.ShloMosaic.PureOps.Ideal.Laws
import proofs.«152618_j27986006901492_2_alg».proof.Proof.RealDef
import proofs.«152618_j27986006901492_2_alg».proof.Proof.LibReal

noncomputable section

namespace Cert.Real

open Idealize.ShloMosaic Cert.Spec

/-- The maximum with a positive real is a positive real, whatever real the other operand is. -/
theorem isPos_maximumf_right {s : Shape} {φ : FTy} {x y : FVec Ideal s φ} (hx : IsReal x) (hy : IsPos y) :
    IsPos (maximumf (F := Ideal) x y) := fun i => by
  obtain ⟨a, ha⟩ := hx i
  obtain ⟨b, hb0, hb⟩ := hy i
  refine ⟨max a b, lt_of_lt_of_le hb0 (le_max_right a b), ?_⟩
  show max (x i) (y i) = _
  rw [ha, hb]
  exact (EReal.coe_strictMono.monotone.map_max).symm

/-- A real number divided by a positive real number is a real number. -/
theorem isReal_hostDivf {s : Shape} {φ : FTy} {x y : FVec Ideal s φ} (hx : IsReal x) (hy : IsPos y) :
    IsReal (Host.divf (F := Ideal) x y) := fun i => by
  obtain ⟨a, ha⟩ := hx i
  obtain ⟨b, hb0, hb⟩ := hy i
  refine ⟨a * (1 / b), ?_⟩
  show Ideal.div (x i) (y i) = _
  rw [ha, hb, Ideal.div_coe hb0.ne', ← EReal.coe_mul]

/-- The zero splat is real. -/
theorem isReal_constant_zero (s : Shape) : IsReal (constant (F := Ideal) s .f32 0x00000000#32) := fun _ =>
  ⟨0, by show Ideal.ofBits .f32 0x00000000#32 = _; rw [Ideal.ofBits_zero_f32, EReal.coe_zero]⟩

/-- The f32 pattern `0x3F000000` denotes one half. -/
theorem ofBits_half_f32 : Ideal.ofBits .f32 0x3F000000#32 = ((1 / 2 : ℝ) : EReal) := by
  simp [Ideal.ofBits, Ideal.ieee, -EReal.coe_mul]; norm_num

end Cert.Real

end
-- ==== Proof.RefReal.lean ====
/-
  The reference's node table holds real numbers.

  With real edge features the per-node feature sums are real (a finite sum of reals from zero); the in-degree is a real
  number (a finite sum of ones), so `max (degree, 1)` is a positive real and the per-node mean, sum over clamped degree, is
  real; gathering rows keeps entries real; and the second aggregation, again a finite sum of reals from zero, is real.
  Nothing is asked of the index vectors: a gather reads SOME row whatever the index, and a scatter drops what lands outside.
-/
import proofs.«152618_j27986006901492_2_alg».proof.Proof.Gen.ReferenceIdeal.Read
import proofs.«152618_j27986006901492_2_alg».proof.Proof.RealDef
import proofs.«152618_j27986006901492_2_alg».proof.Proof.LibReal
import proofs.«152618_j27986006901492_2_alg».proof.Proof.LibRealQuotient

noncomputable section

namespace Cert.ReferenceIdeal.RefReal

open Cert.ReferenceIdeal Cert.ReferenceIdeal.Read Idealize.ShloMosaic Cert.Spec Cert.Real

variable (x0 : FVec Ideal S1600000x48 .f32) (x1 x2 : IVec S1600000 32)

/-- The per-node feature sums are real. -/
theorem isReal_sums (h0 : IsReal x0) : IsReal (val_main_v6 (F := Ideal) x0 x2) :=
  isReal_scatterAdd _ _ (isReal_broadcastInDim _ _ (isReal_constant_zero _)) h0

/-- The clamped in-degree, broadcast along the features, is a positive real. -/
theorem isPos_degree : IsPos (val_main_v10 (F := Ideal) x2) :=
  isPos_broadcastInDim _ _ (isPos_broadcastInDim _ _ (isPos_maximumf_right
    (isReal_scatterAdd _ _ (isReal_broadcastInDim _ _ (isReal_constant_zero _))
      (isPos_broadcastInDim _ _ (isPos_constant_one _)).isReal)
    (isPos_broadcastInDim _ _ (isPos_constant_one _))))

/-- The per-node mean is real. -/
theorem isReal_mean (h0 : IsReal x0) : IsReal (val_main_v11 (F := Ideal) x0 x2) :=
  isReal_hostDivf (isReal_sums x0 x2 h0) (isPos_degree x2)

/-- THE NODE TABLE IS REAL: the means gathered at the sources and summed per destination. -/
theorem isReal_table (h0 : IsReal x0) : IsReal (val_main_v21 (F := Ideal) x0 x1 x2) :=
  isReal_scatterAdd _ _ (isReal_broadcastInDim _ _ (isReal_constant_zero _))
    (isReal_gather _ _ (isReal_mean x0 x2 h0))

end Cert.ReferenceIdeal.RefReal

end
-- ==== Proof.LibHalfSum.lean ====
/-
  The law that joins the two programs.

  One side averages two rows first and then applies the linear map: for each output column it forms
  `∑ₖ (h · (aₖ + cₖ)) · wₖ`. The other applies the linear map to every row once, scales by `h`, and adds the two
  transformed rows: `(∑ₖ aₖ · wₖ) · h + (∑ₖ cₖ · wₖ) · h`. Over the real numbers these agree by distributivity. On the
  extended reals distributivity fails at the infinities (`(⊤ + ⊥) · w` is not `⊤ · w + ⊥ · w`), so the law is stated for
  entries that are real numbers, and is proved by computing in `ℝ`.
-/
import Idealize.ShloMosaic.PureOps.Ideal

noncomputable section

open scoped BigOperators

namespace Cert.HalfSum

/-- The coercion of a finite sum of reals is the sum of the coercions. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- AVERAGE-THEN-TRANSFORM IS TRANSFORM-THEN-AVERAGE, for real entries: with `a`, `c` two rows, `w` a column of the
    linear map and `h` the scale, all real. -/
theorem avg_then_dot {K : Nat} (a c w : Fin K → EReal) (h : EReal)
    (ha : ∀ k, ∃ r : ℝ, a k = (r : EReal)) (hc : ∀ k, ∃ r : ℝ, c k = (r : EReal))
    (hw : ∀ k, ∃ r : ℝ, w k = (r : EReal)) (hh : ∃ r : ℝ, h = (r : EReal)) :
    ∑ k, (h * (a k + c k)) * w k = (∑ k, a k * w k) * h + (∑ k, c k * w k) * h := by
  choose ra hra using ha
  choose rc hrc using hc
  choose rw hrw using hw
  obtain ⟨rh, rfl⟩ := hh
  have e1 : ∀ k, ((rh : EReal) * (a k + c k)) * w k = ((rh * (ra k + rc k) * rw k : ℝ) : EReal) := fun k => by
    rw [hra k, hrc k, hrw k, ← EReal.coe_add, ← EReal.coe_mul, ← EReal.coe_mul]
  have e2 : ∀ k, a k * w k = ((ra k * rw k : ℝ) : EReal) := fun k => by rw [hra k, hrw k, ← EReal.coe_mul]
  have e3 : ∀ k, c k * w k = ((rc k * rw k : ℝ) : EReal) := fun k => by rw [hrc k, hrw k, ← EReal.coe_mul]
  simp only [e1, e2, e3]
  rw [← coe_sum, ← coe_sum, ← coe_sum, ← EReal.coe_mul, ← EReal.coe_mul, ← EReal.coe_add]
  congr 1
  rw [Finset.sum_mul, Finset.sum_mul, ← Finset.sum_add_distrib]
  exact Finset.sum_congr rfl fun k _ => by ring

end Cert.HalfSum

end
-- ==== Proof.Bridge.lean ====
/-
  The two programs compute one function.

  Both programs build the same node table `T` (the per-node means gathered at the sources and summed per destination: the
  two ways of counting the in-degree agree). The kernel then halves `T · Wᵀ` once per NODE and, per edge, adds the rows at
  the edge's source and destination and the bias; the reference, per EDGE, adds the rows of `T` at the source and the
  destination, halves the sum, multiplies by `Wᵀ` and adds the bias. For real `T` and `W` these agree by distributivity
  (`Cert.HalfSum.avg_then_dot`); `T` is real when the edge features are.
-/
import proofs.«152618_j27986006901492_2_alg».proof.Proof.KernelNode
import proofs.«152618_j27986006901492_2_alg».proof.Proof.KernelTail
import proofs.«152618_j27986006901492_2_alg».proof.Proof.RegionValue
import proofs.«152618_j27986006901492_2_alg».proof.Proof.RefNode
import proofs.«152618_j27986006901492_2_alg».proof.Proof.RefTail
import proofs.«152618_j27986006901492_2_alg».proof.Proof.RefReal
import proofs.«152618_j27986006901492_2_alg».proof.Proof.LibHalfSum
import proofs.«152618_j27986006901492_2_alg».proof.Proof.LibRealQuotient

noncomputable section

open scoped BigOperators

namespace Cert.Bridge

open Idealize.ShloMosaic Idealize.ShloMosaic.ValueIdx Cert.Spec

variable (ef : FVec Ideal Cert.ReferenceIdeal.S1600000x48 .f32) (src dst : IVec Cert.ReferenceIdeal.S1600000 32)

/-- ONE NODE TABLE: the kernel's and the reference's second aggregation are the same array. -/
theorem table_eq :
    Cert.KernelIdeal.Stages.h2K ef src dst = Cert.ReferenceIdeal.Read.val_main_v21 (F := Ideal) ef src dst := by
  unfold Cert.KernelIdeal.Stages.h2K
  rw [Cert.KernelIdeal.Stages.nodeK_eq, ← Cert.ReferenceIdeal.RefNode.mean_eq]
  rfl

/-- The two programs read the same node row for an edge (one spelling of the index wrap and clamp). -/
theorem rows_src (x : IVec Cert.ReferenceIdeal.S1600000 32) (e : Fin 1600000) :
    Cert.KernelIdeal.Stages.rowAt x e = Cert.ReferenceIdeal.RefTail.srcRow x e := rfl
theorem rows_dst (x : IVec Cert.ReferenceIdeal.S1600000 32) (e : Fin 1600000) :
    Cert.KernelIdeal.Stages.rowAt x e = Cert.ReferenceIdeal.RefTail.dstRow x e := rfl

/-- THE LAW AT AN ENTRY, for ANY real node table `T` and real weight `W`, any two rows and any bias entry: adding the
    halved products of the two rows is the product of the halved sum of the two rows. -/
theorem core (T : Cert.KernelIdeal.S50000x48.Idx → EReal) (W : Cert.KernelIdeal.S48x48.Idx → EReal)
    (hT : IsReal T) (hW : IsReal W) (rs rd : Fin 50000) (o : Fin 48) (bo : EReal) :
    (Cert.KernelIdeal.Region.halfProduct T W (ix2 rs o) + Cert.KernelIdeal.Region.halfProduct T W (ix2 rd o)) + bo
      = (∑ k : Fin 48, (Ideal.ofBits .f32 0x3F000000#32 * (T (ix2 rs k) + T (ix2 rd k))) * W (ix2 o k)) + bo := by
  rw [Cert.KernelIdeal.Region.halfProduct_apply, Cert.KernelIdeal.Region.halfProduct_apply]
  refine congrArg (· + bo) ?_
  exact (Cert.HalfSum.avg_then_dot (fun k => T (ix2 rs k)) (fun k => T (ix2 rd k)) (fun k => W (ix2 o k))
    (Ideal.ofBits .f32 0x3F000000#32) (fun k => hT _) (fun k => hT _) (fun k => hW _)
    ⟨1 / 2, Cert.Real.ofBits_half_f32⟩).symm

/-- ONE RESULT: for real edge features and a real weight, the kernel's result array is the reference's. -/
theorem result_eq (W : FVec Ideal Cert.ReferenceIdeal.S48x48 .f32) (b : FVec Ideal Cert.ReferenceIdeal.S48 .f32)
    (hef : IsReal ef) (hW : IsReal W) :
    Cert.KernelIdeal.Stages.tailK
        (Cert.KernelIdeal.Region.halfProduct (Cert.KernelIdeal.Stages.h2K ef src dst) W) src dst b
      = Cert.ReferenceIdeal.Read.val_main_v43 (F := Ideal) ef src dst W b := by
  funext i
  obtain ⟨e, o, rfl⟩ : ∃ (e : Fin 1600000) (o : Fin 48), i = ix2 e o := ⟨i 0, i 1, eq_ix2 i⟩
  rw [Cert.KernelIdeal.Stages.tailK_apply, Cert.ReferenceIdeal.RefTail.out_apply, table_eq,
    rows_src src e, rows_dst dst e]
  exact core _ W (Cert.ReferenceIdeal.RefReal.isReal_table ef src dst hef) hW _ _ o _

end Cert.Bridge

end
-- ==== Proof.LibFiniteReal.lean ====
/-
  GENERAL LEMMAS: a `finite inputs` precondition read back on the extended reals.

  A precondition of the form `jnp.all (jnp.abs a < inf)` prints as a host `reduce` by `and`, from the constant
  one, of the comparison `|a| < +∞` against the f32 pattern `0x7F800000` broadcast from a scalar. On the extended
  reals `|v| = max v (-v)` is `+∞` at both infinities, so `|v| < +∞` says exactly that `v` is a real number.
  `real_of_all` turns ONE such conjunct, for an array of any shape reduced over any axes into a scalar, into
  `∀ i, ∃ r : ℝ, a i = r`. Imports only the library.
-/
import Idealize.ShloMosaic.Lib.ReduceAll
import Idealize.ShloMosaic.Lib.ValueIdx
import Idealize.ShloMosaic.PureOps.Ideal

noncomputable section

namespace Cert.FiniteReal

open Idealize.ShloMosaic Idealize.ShloMosaic.ValueIdx

/-- The f32 pattern `0x7F800000` is `+∞`. -/
theorem ofBits_pos_inf : Ideal.ofBits .f32 0x7F800000#32 = ⊤ := by simp [Ideal.ofBits, Ideal.ieee]

/-- `|v| < +∞` on the extended reals: `v` is real. -/
theorem real_of_abs_lt (v : EReal)
    (h : Ideal.cmp .olt (max v (-v)) (Ideal.ofBits .f32 0x7F800000#32) = 1#1) : ∃ r : ℝ, v = r := by
  rw [ofBits_pos_inf] at h
  induction v using EReal.rec with
  | bot =>
    exfalso
    rw [EReal.neg_bot, max_eq_right bot_le] at h
    simp [Ideal.cmp] at h
  | coe r => exact ⟨r, rfl⟩
  | top =>
    exfalso
    rw [max_eq_left le_top] at h
    simp [Ideal.cmp] at h

/-- A scalar has one index. -/
instance scalarIdx_subsingleton : Subsingleton (⟨0, ![]⟩ : Shape).Idx := ⟨fun a b => funext fun d => d.elim0⟩

/-- ONE CONJUNCT OF THE PRECONDITION, read back: an array whose `all (|a| < +∞)` is one has real entries. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ix0 = 1#1) (i : s.Idx) : ∃ r : ℝ, a i = r :=
  real_of_abs_lt (a i) (Host.reduce_andi_all _ _ hr hu ix0 h i)

end Cert.FiniteReal

end
-- ==== Proof.Finite.lean ====
/-
  The precondition, read back.

  `finite_inputs` is the conjunction of three `all (|a| < +∞)`, one per float argument (edge features, weight, bias). On the
  extended reals `|v| < +∞` says that `v` is a real number, so the first two conjuncts say that the edge features and the
  weight hold real numbers only. (The bias is only ever added last, on both sides alike: its finiteness is not used.)
-/
import proofs.«152618_j27986006901492_2_alg».proof.Pre_finite_inputs
import proofs.«152618_j27986006901492_2_alg».proof.Proof.Gen.Pre_finite_inputs
import proofs.«152618_j27986006901492_2_alg».proof.Proof.LibFiniteReal
import proofs.«152618_j27986006901492_2_alg».proof.Proof.RealDef
import Idealize.ShloMosaic.Lib.Affine

noncomputable section

namespace Cert.Finite

open Idealize.ShloMosaic Idealize.ShloMosaic.ValueIdx Cert.Spec Cert.Pre_finite_inputs

/-- Under `finite_inputs` the edge features and the weight are real. -/
theorem real_of_pre (a0 : FVec Ideal S1600000x48 .f32) (a1 a2 : IVec S1600000 32) (a3 : FVec Ideal S48x48 .f32)
    (a4 : FVec Ideal S48 .f32) (h : fn (F := Ideal) a0 a1 a2 a3 a4 = fun _ => 1#1) : IsReal a0 ∧ IsReal a3 := by
  have h0 := congrFun h ix0
  dsimp only [fn] at h0
  obtain ⟨h01, _⟩ := IntOp.andi_eq_one.mp h0
  obtain ⟨hA, hW⟩ := IntOp.andi_eq_one.mp h01
  exact ⟨fun i => Cert.FiniteReal.real_of_all a0 Facts.bcast_S_S1600000x48 Facts.reducesTo_S1600000x48_S_d0_1
      Facts.h_S_ hA i,
    fun i => Cert.FiniteReal.real_of_all a3 Facts.bcast_S_S48x48 Facts.reducesTo_S48x48_S_d0_1 Facts.h_S_ hW i⟩

end Cert.Finite

end
-- ==== Proof.lean ====
/-
  The certificate of an edge-feature layer of a graph network, kernel against reference.

  Both programs compute, for every edge `e` and output feature `o`,
      out (e, o) = ½ · (T (src e) + T (dst e)) · Wᵀ (·, o) + b o,
  where `T` is the node table: the per-node mean of the in-edge features, gathered at the sources and summed per
  destination node. The reference forms the halved sum of two rows of `T` per edge and multiplies by the transposed weight.
  The kernel multiplies `T` by the transposed weight and halves it once per node, in one region of ten row blocks, and
  then only adds two rows of the product per edge. The two agree by distributivity, which on the extended reals needs the
  entries of `T` and `W` to be real numbers: that is what the precondition gives (finite edge features and weight; the node
  means divide by a degree clamped below by one, so they are real too). Nothing is asked of the index vectors: a gather
  clamps its row number and a scatter drops what lands outside, the same in both programs.

  The three frames are the generated ones (the reference's is its generated run with the result dropped); the idealization
  rewrote nothing; the value claim is `Cert.Bridge.result_eq` between the kernel's run (`Cert.KernelIdeal.Stages.run`) and
  the reference's generated run.
-/
import proofs.«152618_j27986006901492_2_alg».proof.Defs
import proofs.«152618_j27986006901492_2_alg».proof.Proof.Gen.Kernel
import proofs.«152618_j27986006901492_2_alg».proof.Proof.Gen.Kernel.Skeleton
import proofs.«152618_j27986006901492_2_alg».proof.Proof.Gen.Kernel.Launch
import proofs.«152618_j27986006901492_2_alg».proof.Proof.Gen.Kernel.Points
import proofs.«152618_j27986006901492_2_alg».proof.Proof.Gen.Kernel.Frame
import proofs.«152618_j27986006901492_2_alg».proof.Proof.Gen.KernelIdeal
import proofs.«152618_j27986006901492_2_alg».proof.Proof.Gen.KernelIdeal.Skeleton
import proofs.«152618_j27986006901492_2_alg».proof.Proof.Gen.KernelIdeal.Launch
import proofs.«152618_j27986006901492_2_alg».proof.Proof.Gen.KernelIdeal.Points
import proofs.«152618_j27986006901492_2_alg».proof.Proof.Gen.KernelIdeal.Frame
import proofs.«152618_j27986006901492_2_alg».proof.Proof.Gen.ReferenceIdeal
import proofs.«152618_j27986006901492_2_alg».proof.Proof.Gen.Pre_finite_inputs
import proofs.«152618_j27986006901492_2_alg».proof.Proof.Gen.ReferenceIdeal.Run
import proofs.«152618_j27986006901492_2_alg».proof.Proof.Gen.ReferenceIdeal.Read
import proofs.«152618_j27986006901492_2_alg».proof.Proof.KernelValue
import proofs.«152618_j27986006901492_2_alg».proof.Proof.Bridge
import proofs.«152618_j27986006901492_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments, of which the precondition holds: the kernel's run ends with its result at
    `resultK` of the arguments, the reference's at its composed term, which is the same array. -/
theorem algebraic : Cert.algebraic_KernelIdeal_ReferenceIdeal := by
  intro m ρ m' ρ' hpre hagree
  refine ⟨fun c => Cert.KernelIdeal.Stages.resultK m c, Cert.KernelIdeal.Stages.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2.1, (hagree c).2.2.1, (hagree c).2.2.2.1,
    (hagree c).2.2.2.2]
  obtain ⟨hef, hW⟩ := Cert.Finite.real_of_pre _ _ _ _ _ (hpre c)
  exact (Cert.Bridge.result_eq _ _ _ _ _ hef hW).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
